-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v135) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S2x1600000 : Shape := ⟨2, ![2, 1600000]⟩
abbrev S2x500000 : Shape := ⟨2, ![2, 500000]⟩
abbrev S7x128 : Shape := ⟨2, ![7, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S7x128 : S_.BroadcastsInDim S7x128 (![] : Fin 0 → Fin S7x128.rank)
  reducesTo_S7x128_S_d0_1 : S7x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S64x1 .f32) (main_arg14 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg13
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S128x128 .f32) (main_arg10 : FVec F S128 .f32) (main_arg11 : FVec F S128x64 .f32) (main_arg12 : FVec F S64 .f32) (main_arg13 : FVec F S64x1 .f32) (main_arg14 : FVec F S1 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128 .f32) (main_arg7 : FVec F S128x64 .f32) (main_arg8 : FVec F S64 .f32) (main_arg9 : FVec F S128x128 .f32) (main_arg10 : FVec F S128 .f32) (main_arg11 : FVec F S128x64 .f32) (main_arg12 : FVec F S64 .f32) (main_arg13 : FVec F S64x1 .f32) (main_arg14 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S100000x7 .f32) (main_arg1 : IVec S2x1600000 32) (main_arg2 : IVec S2x500000 32) (main_arg3 : FVec F S7x128 .f32) (main_arg4 : FVec F S128 .f32) (main_arg5 : FVec F S128x128 .f32) (main_arg6 : FVec F S128 .f32) (main_arg7 : FVec F S128x64 .f32) (main_arg8 : FVec F S64 .f32) (main_arg9 : FVec F S128x128 .f32) (main_arg10 : FVec F S128 .f32) (main_arg11 : FVec F S128x64 .f32) (main_arg12 : FVec F S64 .f32) (main_arg13 : FVec F S64x1 .f32) (main_arg14 : FVec F S1 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S7x128 .f32 := Host.absf main_arg3
  let main_cst_0 : FVec F S_ .f32 := constant S_ .f32 0x7F800000#32
  let main_v5 : FVec F S7x128 .f32 := broadcastInDim S7x128 ![] bcast_S_S7x128 main_cst_0
  let main_v6 : IVec S7x128 1 := cmpf .olt main_v4 main_v5
  let main_c_1 : IVec S_ 1 := constantI S_ 1 1#1
  let main_v7 : IVec S_ 1 := (fun x v => Host.reduce IntOp.andi x v reducesTo_S7x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S100000x7 : Shape := ⟨2, ![100000, 7]⟩
abbrev S2x1600000 : Shape := ⟨2, ![2, 1600000]⟩
abbrev S2x500000 : Shape := ⟨2, ![2, 500000]⟩
abbrev S7x128 : Shape := ⟨2, ![7, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S5000x7 : Shape := ⟨2, ![5000, 7]⟩
abbrev S5000x128 : Shape := ⟨2, ![5000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S1x64 : Shape := ⟨2, ![1, 64]⟩
abbrev S100000x64 : Shape := ⟨2, ![100000, 64]⟩
abbrev S5000x64 : Shape := ⟨2, ![5000, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x128 : Shape := ⟨2, ![500000, 128]⟩
abbrev S1x1 : Shape := ⟨2, ![1, 1]⟩
abbrev S5000x1 : Shape := ⟨2, ![5000, 1]⟩

abbrev nBuf : Space → Nat
  | .hbm => 185
  | .vmem => 26
  | .smem => 0
  | _ => 0

abbrev hbmTy0_0 (i : Nat) : BufTy := match i % 128 with
  | 0 => ⟨S100000x7, .f32⟩
  | 1 => ⟨S2x1600000, .i32⟩
  | 2 => ⟨S2x500000, .i32⟩
  | 3 => ⟨S7x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128x128, .f32⟩
  | 10 => ⟨S128, .f32⟩
  | 11 => ⟨S128x64, .f32⟩
  | 12 => ⟨S64, .f32⟩
  | 13 => ⟨S64x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S100000x128, .f32⟩
  | 20 => ⟨S_, .f32⟩
  | 21 => ⟨S1600000, .f32⟩
  | 22 => ⟨S_, .f32⟩
  | 23 => ⟨S100000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S100000x128, .f32⟩
  | 76 => ⟨S100000, .f32⟩
  | 77 => ⟨S100000x1, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S100000x128, .f32⟩
  | 88 => ⟨S_, .f32⟩
  | 89 => ⟨S1600000, .f32⟩
  | 90 => ⟨S_, .f32⟩
  | 91 => ⟨S100000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S100000, .f32⟩
  | 101 => ⟨S100000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000, .f32⟩
  | 120 => ⟨S1600000, .f32⟩
  | 121 => ⟨S_, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x7, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S1600000x1, .f32⟩
  | 5 => ⟨S1600000x128, .f32⟩
  | 6 => ⟨S1600000x128, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S100000x128, .f32⟩
  | 16 => ⟨S100000, .f32⟩
  | 17 => ⟨S100000x1, .f32⟩
  | 18 => ⟨S100000x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S1x64, .f32⟩
  | 28 => ⟨S100000x64, .f32⟩
  | 29 => ⟨S1x500000, .i32⟩
  | 30 => ⟨S500000, .i32⟩
  | 31 => ⟨S1x500000, .i32⟩
  | 32 => ⟨S500000, .i32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x64, .f32⟩
  | 42 => ⟨S_, .i32⟩
  | 43 => ⟨S500000, .i32⟩
  | 44 => ⟨S500000, .i1⟩
  | 45 => ⟨S_, .i32⟩
  | 46 => ⟨S500000, .i32⟩
  | 47 => ⟨S500000, .i32⟩
  | 48 => ⟨S500000, .i32⟩
  | 49 => ⟨S500000x1, .i32⟩
  | 50 => ⟨S500000x64, .f32⟩
  | 51 => ⟨S500000x128, .f32⟩
  | 52 => ⟨S1x128, .f32⟩
  | 53 => ⟨S1x64, .f32⟩
  | 54 => ⟨S1x1, .f32⟩
  | 55 => ⟨S500000x1, .f32⟩
  | 56 => ⟨S500000, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | .local _ .vmem, ⟨0, _⟩ => ⟨S5000x7, .f32⟩
  | .local _ .vmem, ⟨1, _⟩ => ⟨S5000x7, .f32⟩
  | .local _ .vmem, ⟨2, _⟩ => ⟨S7x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S1x64, .f32⟩
  | .local _ .vmem, ⟨14, _⟩ => ⟨S5000x64, .f32⟩
  | .local _ .vmem, ⟨15, _⟩ => ⟨S5000x64, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x64, .f32⟩
  | .local _ .vmem, ⟨21, _⟩ => ⟨S1x64, .f32⟩
  | .local _ .vmem, ⟨22, _⟩ => ⟨S64x1, .f32⟩
  | .local _ .vmem, ⟨23, _⟩ => ⟨S1x1, .f32⟩
  | .local _ .vmem, ⟨24, _⟩ => ⟨S5000x1, .f32⟩
  | .local _ .vmem, ⟨25, _⟩ => ⟨S5000x1, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call0_cst : Ref sig .tc := ⟨.hbm, 84, rfl⟩
abbrev main_call0_v0 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_15 : Ref sig .tc := ⟨.hbm, 102, rfl⟩
abbrev main_v68 : Ref sig .tc := ⟨.hbm, 103, rfl⟩
abbrev main_v69 : Ref sig .tc := ⟨.hbm, 104, rfl⟩
abbrev main_c_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_19 : Ref sig .tc := ⟨.hbm, 121, rfl⟩
abbrev main_v83 : Ref sig .tc := ⟨.hbm, 122, rfl⟩
abbrev main_c_20 : Ref sig .tc := ⟨.hbm, 123, rfl⟩
abbrev main_v84 : Ref sig .tc := ⟨.hbm, 124, rfl⟩
abbrev main_v85 : Ref sig .tc := ⟨.hbm, 125, rfl⟩
abbrev main_c_21 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_22 : Ref sig .tc := ⟨.hbm, 135, rfl⟩
abbrev main_v94 : Ref sig .tc := ⟨.hbm, 136, rfl⟩
abbrev main_v95 : Ref sig .tc := ⟨.hbm, 137, rfl⟩
abbrev main_c_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_call1_cst : Ref sig .tc := ⟨.hbm, 152, rfl⟩
abbrev main_call1_v0 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_24 : Ref sig .tc := ⟨.hbm, 161, rfl⟩
abbrev main_v116 : Ref sig .tc := ⟨.hbm, 162, rfl⟩
abbrev main_v117 : Ref sig .tc := ⟨.hbm, 163, rfl⟩
abbrev main_c_25 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_c_26 : Ref sig .tc := ⟨.hbm, 170, rfl⟩
abbrev main_v123 : Ref sig .tc := ⟨.hbm, 171, rfl⟩
abbrev main_v124 : Ref sig .tc := ⟨.hbm, 172, rfl⟩
abbrev main_c_27 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg4_0 : Ref sig .tc := ⟨.vmem, 21, rfl⟩
abbrev cc3_stg5_0 : Ref sig .tc := ⟨.vmem, 22, rfl⟩
abbrev cc3_stg6_0 : Ref sig .tc := ⟨.vmem, 23, rfl⟩
abbrev cc3_stg7_0 : Ref sig .tc := ⟨.vmem, 24, rfl⟩
abbrev cc3_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem4_0 : DmaSem sig := 21
abbrev cc3_sem5_0 : DmaSem sig := 22
abbrev cc3_sem6_0 : DmaSem sig := 23
abbrev cc3_sem7_0 : DmaSem sig := 24
abbrev cc3_sem7_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S7x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x1 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x1 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x7_S5000x7_0_0 : ∀ a, (![0, 0] : Fin 2 → Nat) a + S5000x7.size a ≤ S5000x7.size a
  h_S5000x7 : 0 < S5000x7.numel
  bitsLt_bf16_f32 : FTy.bits .bf16 < FTy.bits .f32
  inb_S7x128_S7x128_0_0 : ∀ a, (![0, 0] : Fin 2 → Nat) a + S7x128.size a ≤ S7x128.size a
  h_S7x128 : 0 < S7x128.numel
  inb_S5000x128_S5000x128_0_0 : ∀ a, (![0, 0] : Fin 2 → Nat) a + S5000x128.size a ≤ S5000x128.size a
  h_S5000x128 : 0 < S5000x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x64_S500000x64_S500000x128_d1 : Shape.Concatenates [S500000x64, S500000x64] S500000x128 1
  shapeCasts_S128_S1x128 : S128.ShapeCasts S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  dot_S5000x7_S7x128_S5000x128_1_0_0_1_n_n_wf : DotDims.WF S5000x7 S7x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S100000x64_S500000x1_S500000x64_1_0_n_n_0_1_164_wf : GatherDims.WF S100000x64 S500000x1 S500000x64 [1] [0] [] [0] [] 1 ![1, 64]
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S100000x7.size a
  hwx0_0 : ∀ i : grid0.Coords, EltTy.bits .f32 = 32 ∨ (Rect.block (s := S100000x7) S5000x7.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S7x128.size a ≤ S7x128.size a
  hwx0_1 : ∀ i : grid0.Coords, EltTy.bits .f32 = 32 ∨ (Rect.block (s := S7x128) S7x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S500000x128.size a
  hwx3_0 : ∀ i : grid3.Coords, EltTy.bits .f32 = 32 ∨ (Rect.block (s := S500000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x1.size a ≤ S64x1.size a
  hwx3_5 : ∀ i : grid3.Coords, EltTy.bits .f32 = 32 ∨ (Rect.block (s := S64x1) S64x1.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x1.size a ≤ S1x1.size a
  hwx3_6 : ∀ i : grid3.Coords, EltTy.bits .f32 = 32 ∨ (Rect.block (s := S1x1) S1x1.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x1.size a ≤ S500000x1.size a
  hwx3_7 : ∀ i : grid3.Coords, EltTy.bits .f32 = 32 ∨ (Rect.block (s := S500000x1) S5000x1.size (cc3_transform_7 i) (hinb3_7 i)).WholeWords (EltTy.packing .f32)

variable [Facts₀]

def dot_S5000x7_S7x128_S5000x128_1_0_0_1_n_n : DotDims S5000x7 S7x128 S5000x128 where
  lhsContracting := [1]
  rhsContracting := [0]
  lhsNonContracting := [0]
  rhsNonContracting := [1]
  lhsBatch := []
  rhsBatch := []
  wf := dot_S5000x7_S7x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S7x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v56) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v109) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v110) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v111) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v130) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v131) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg11) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v132) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S64x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v133) S1x1.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v134) S5000x1.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x7 : Shape := ⟨2, ![100000, 7]⟩
abbrev S2x1600000 : Shape := ⟨2, ![2, 1600000]⟩
abbrev S2x500000 : Shape := ⟨2, ![2, 500000]⟩
abbrev S7x128 : Shape := ⟨2, ![7, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S100000x128 : Shape := ⟨2, ![100000, 128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩
abbrev S1x500000 : Shape := ⟨2, ![1, 500000]⟩
abbrev S500000 : Shape := ⟨1, ![500000]⟩
abbrev S500000x1 : Shape := ⟨2, ![500000, 1]⟩
abbrev S500000x64 : Shape := ⟨2, ![500000, 64]⟩
abbrev S500000x128 : Shape := ⟨2, ![500000, 128]⟩
abbrev S1x1 : Shape := ⟨2, ![1, 1]⟩

abbrev nBuf : Space → Nat
  | .hbm => 209
  | .vmem => 0
  | .smem => 0
  | _ => 0

abbrev hbmTy0_0 (i : Nat) : BufTy := match i % 128 with
  | 0 => ⟨S100000x7, .f32⟩
  | 1 => ⟨S2x1600000, .i32⟩
  | 2 => ⟨S2x500000, .i32⟩
  | 3 => ⟨S7x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S128x128, .f32⟩
  | 10 => ⟨S128, .f32⟩
  | 11 => ⟨S128x64, .f32⟩
  | 12 => ⟨S64, .f32⟩
  | 13 => ⟨S64x1, .f32⟩
  | 14 => ⟨S1, .f32⟩
  | 15 => ⟨S1x1600000, .i32⟩
  | 16 => ⟨S1600000, .i32⟩
  | 17 => ⟨S1x1600000, .i32⟩
  | 18 => ⟨S1600000, .i32⟩
  | 19 => ⟨S100000x128, .f32⟩
  | 20 => ⟨S_, .f32⟩
  | 21 => ⟨S100000, .f32⟩
  | 22 => ⟨S_, .f32⟩
  | 23 => ⟨S1600000, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S100000, .f32⟩
  | 33 => ⟨S100000, .f32⟩
  | 34 => ⟨S_, .i32⟩
  | 35 => ⟨S1600000, .i32⟩
  | 36 => ⟨S1600000, .i1⟩
  | 37 => ⟨S_, .i32⟩
  | 38 => ⟨S1600000, .i32⟩
  | 39 => ⟨S1600000, .i32⟩
  | 40 => ⟨S1600000, .i32⟩
  | 41 => ⟨S1600000x1, .i32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000, .f32⟩
  | 52 => ⟨S1600000, .f32⟩
  | 53 => ⟨S_, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S1600000x1, .f32⟩
  | 65 => ⟨S1600000x128, .f32⟩
  | 66 => ⟨S1600000x128, .f32⟩
  | 67 => ⟨S_, .i32⟩
  | 68 => ⟨S1600000, .i32⟩
  | 69 => ⟨S1600000, .i1⟩
  | 70 => ⟨S_, .i32⟩
  | 71 => ⟨S1600000, .i32⟩
  | 72 => ⟨S1600000, .i32⟩
  | 73 => ⟨S1600000, .i32⟩
  | 74 => ⟨S1600000x1, .i32⟩
  | 75 => ⟨S100000x128, .f32⟩
  | 76 => ⟨S100000, .f32⟩
  | 77 => ⟨S100000x1, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S100000x128, .f32⟩
  | 88 => ⟨S_, .f32⟩
  | 89 => ⟨S100000, .f32⟩
  | 90 => ⟨S_, .f32⟩
  | 91 => ⟨S1600000, .f32⟩
  | 92 => ⟨S_, .i32⟩
  | 93 => ⟨S1600000, .i32⟩
  | 94 => ⟨S1600000, .i1⟩
  | 95 => ⟨S_, .i32⟩
  | 96 => ⟨S1600000, .i32⟩
  | 97 => ⟨S1600000, .i32⟩
  | 98 => ⟨S1600000, .i32⟩
  | 99 => ⟨S1600000x1, .i32⟩
  | 100 => ⟨S100000, .f32⟩
  | 101 => ⟨S100000, .f32⟩
  | 102 => ⟨S_, .i32⟩
  | 103 => ⟨S1600000, .i32⟩
  | 104 => ⟨S1600000, .i1⟩
  | 105 => ⟨S_, .i32⟩
  | 106 => ⟨S1600000, .i32⟩
  | 107 => ⟨S1600000, .i32⟩
  | 108 => ⟨S1600000, .i32⟩
  | 109 => ⟨S1600000x1, .i32⟩
  | 110 => ⟨S1600000, .f32⟩
  | 111 => ⟨S_, .i32⟩
  | 112 => ⟨S1600000, .i32⟩
  | 113 => ⟨S1600000, .i1⟩
  | 114 => ⟨S_, .i32⟩
  | 115 => ⟨S1600000, .i32⟩
  | 116 => ⟨S1600000, .i32⟩
  | 117 => ⟨S1600000, .i32⟩
  | 118 => ⟨S1600000x1, .i32⟩
  | 119 => ⟨S1600000, .f32⟩
  | 120 => ⟨S1600000, .f32⟩
  | 121 => ⟨S_, .f32⟩
  | 122 => ⟨S100000x128, .f32⟩
  | 123 => ⟨S_, .i32⟩
  | 124 => ⟨S1600000, .i32⟩
  | 125 => ⟨S1600000, .i1⟩
  | 126 => ⟨S_, .i32⟩
  | 127 => ⟨S1600000, .i32⟩
  | _ => ⟨S100000x7, .f32⟩

abbrev hbmTy0_1 (i : Nat) : BufTy := match i % 128 with
  | 0 => ⟨S1600000, .i32⟩
  | 1 => ⟨S1600000, .i32⟩
  | 2 => ⟨S1600000x1, .i32⟩
  | 3 => ⟨S1600000x128, .f32⟩
  | 4 => ⟨S1600000x1, .f32⟩
  | 5 => ⟨S1600000x128, .f32⟩
  | 6 => ⟨S1600000x128, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S100000x128, .f32⟩
  | 16 => ⟨S100000, .f32⟩
  | 17 => ⟨S100000x1, .f32⟩
  | 18 => ⟨S100000x128, .f32⟩
  | 19 => ⟨S100000x128, .f32⟩
  | 20 => ⟨S100000x128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S100000x64, .f32⟩
  | 28 => ⟨S1x64, .f32⟩
  | 29 => ⟨S100000x64, .f32⟩
  | 30 => ⟨S100000x64, .f32⟩
  | 31 => ⟨S1x500000, .i32⟩
  | 32 => ⟨S500000, .i32⟩
  | 33 => ⟨S_, .i32⟩
  | 34 => ⟨S500000, .i32⟩
  | 35 => ⟨S500000, .i1⟩
  | 36 => ⟨S_, .i32⟩
  | 37 => ⟨S500000, .i32⟩
  | 38 => ⟨S500000, .i32⟩
  | 39 => ⟨S500000, .i32⟩
  | 40 => ⟨S500000x1, .i32⟩
  | 41 => ⟨S500000x64, .f32⟩
  | 42 => ⟨S1x500000, .i32⟩
  | 43 => ⟨S500000, .i32⟩
  | 44 => ⟨S_, .i32⟩
  | 45 => ⟨S500000, .i32⟩
  | 46 => ⟨S500000, .i1⟩
  | 47 => ⟨S_, .i32⟩
  | 48 => ⟨S500000, .i32⟩
  | 49 => ⟨S500000, .i32⟩
  | 50 => ⟨S500000, .i32⟩
  | 51 => ⟨S500000x1, .i32⟩
  | 52 => ⟨S500000x64, .f32⟩
  | 53 => ⟨S500000x128, .f32⟩
  | 54 => ⟨S500000x128, .f32⟩
  | 55 => ⟨S1x128, .f32⟩
  | 56 => ⟨S500000x128, .f32⟩
  | 57 => ⟨S500000x128, .f32⟩
  | 58 => ⟨S_, .f32⟩
  | 59 => ⟨S500000x128, .f32⟩
  | 60 => ⟨S500000x128, .f32⟩
  | 61 => ⟨S500000x64, .f32⟩
  | 62 => ⟨S1x64, .f32⟩
  | 63 => ⟨S500000x64, .f32⟩
  | 64 => ⟨S500000x64, .f32⟩
  | 65 => ⟨S_, .f32⟩
  | 66 => ⟨S500000x64, .f32⟩
  | 67 => ⟨S500000x64, .f32⟩
  | 68 => ⟨S500000x1, .f32⟩
  | 69 => ⟨S1x1, .f32⟩
  | 70 => ⟨S500000x1, .f32⟩
  | 71 => ⟨S500000x1, .f32⟩
  | 72 => ⟨S500000, .f32⟩
  | 73 => ⟨S500000, .f32⟩
  | 74 => ⟨S500000, .f32⟩
  | 75 => ⟨S_, .f32⟩
  | 76 => ⟨S500000, .f32⟩
  | 77 => ⟨S500000, .f32⟩
  | 78 => ⟨S_, .f32⟩
  | 79 => ⟨S500000, .f32⟩
  | 80 => ⟨S500000, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_cst : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_c : Ref sig .tc := ⟨.hbm, 24, rfl⟩
abbrev main_v7 : Ref sig .tc := ⟨.hbm, 25, rfl⟩
abbrev main_v8 : Ref sig .tc := ⟨.hbm, 26, rfl⟩
abbrev main_c_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_6 : Ref sig .tc := ⟨.hbm, 53, rfl⟩
abbrev main_v30 : Ref sig .tc := ⟨.hbm, 54, rfl⟩
abbrev main_c_7 : Ref sig .tc := ⟨.hbm, 55, rfl⟩
abbrev main_v31 : Ref sig .tc := ⟨.hbm, 56, rfl⟩
abbrev main_v32 : Ref sig .tc := ⟨.hbm, 57, rfl⟩
abbrev main_c_8 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_c_9 : Ref sig .tc := ⟨.hbm, 67, rfl⟩
abbrev main_v41 : Ref sig .tc := ⟨.hbm, 68, rfl⟩
abbrev main_v42 : Ref sig .tc := ⟨.hbm, 69, rfl⟩
abbrev main_c_10 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call0_cst : Ref sig .tc := ⟨.hbm, 84, rfl⟩
abbrev main_call0_v0 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_cst_12 : Ref sig .tc := ⟨.hbm, 90, rfl⟩
abbrev main_v59 : Ref sig .tc := ⟨.hbm, 91, rfl⟩
abbrev main_c_13 : Ref sig .tc := ⟨.hbm, 92, rfl⟩
abbrev main_v60 : Ref sig .tc := ⟨.hbm, 93, rfl⟩
abbrev main_v61 : Ref sig .tc := ⟨.hbm, 94, rfl⟩
abbrev main_c_14 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_15 : Ref sig .tc := ⟨.hbm, 102, rfl⟩
abbrev main_v68 : Ref sig .tc := ⟨.hbm, 103, rfl⟩
abbrev main_v69 : Ref sig .tc := ⟨.hbm, 104, rfl⟩
abbrev main_c_16 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_c_17 : Ref sig .tc := ⟨.hbm, 111, rfl⟩
abbrev main_v75 : Ref sig .tc := ⟨.hbm, 112, rfl⟩
abbrev main_v76 : Ref sig .tc := ⟨.hbm, 113, rfl⟩
abbrev main_c_18 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_cst_19 : Ref sig .tc := ⟨.hbm, 121, rfl⟩
abbrev main_v83 : Ref sig .tc := ⟨.hbm, 122, rfl⟩
abbrev main_c_20 : Ref sig .tc := ⟨.hbm, 123, rfl⟩
abbrev main_v84 : Ref sig .tc := ⟨.hbm, 124, rfl⟩
abbrev main_v85 : Ref sig .tc := ⟨.hbm, 125, rfl⟩
abbrev main_c_21 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_c_22 : Ref sig .tc := ⟨.hbm, 135, rfl⟩
abbrev main_v94 : Ref sig .tc := ⟨.hbm, 136, rfl⟩
abbrev main_v95 : Ref sig .tc := ⟨.hbm, 137, rfl⟩
abbrev main_c_23 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_call1_cst : Ref sig .tc := ⟨.hbm, 152, rfl⟩
abbrev main_call1_v0 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_24 : Ref sig .tc := ⟨.hbm, 161, rfl⟩
abbrev main_v116 : Ref sig .tc := ⟨.hbm, 162, rfl⟩
abbrev main_v117 : Ref sig .tc := ⟨.hbm, 163, rfl⟩
abbrev main_c_25 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_c_26 : Ref sig .tc := ⟨.hbm, 172, rfl⟩
abbrev main_v125 : Ref sig .tc := ⟨.hbm, 173, rfl⟩
abbrev main_v126 : Ref sig .tc := ⟨.hbm, 174, rfl⟩
abbrev main_c_27 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_call2_cst : Ref sig .tc := ⟨.hbm, 186, rfl⟩
abbrev main_call2_v0 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_call3_cst : Ref sig .tc := ⟨.hbm, 193, rfl⟩
abbrev main_call3_v0 : Ref sig .tc := ⟨.hbm, 194, rfl⟩
abbrev main_v142 : Ref sig .tc := ⟨.hbm, 195, rfl⟩
abbrev main_v143 : Ref sig .tc := ⟨.hbm, 196, rfl⟩
abbrev main_v144 : Ref sig .tc := ⟨.hbm, 197, rfl⟩
abbrev main_v145 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_cst_28 : Ref sig .tc := ⟨.hbm, 203, rfl⟩
abbrev main_v150 : Ref sig .tc := ⟨.hbm, 204, rfl⟩
abbrev main_v151 : Ref sig .tc := ⟨.hbm, 205, rfl⟩
abbrev main_cst_29 : Ref sig .tc := ⟨.hbm, 206, rfl⟩
abbrev main_v152 : Ref sig .tc := ⟨.hbm, 207, rfl⟩
abbrev main_v153 : Ref sig .tc := ⟨.hbm, 208, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S1600000x1_S1600000x128_0_1 : S1600000x1.BroadcastsInDim S1600000x128 (![0, 1] : Fin 2 → Fin S1600000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x500000_S1x500000_0_0 : S2x500000.Slices ![0, 0] S1x500000
  shapeCasts_S1x500000_S500000 : S1x500000.ShapeCasts S500000
  bcast_S_S500000 : S_.BroadcastsInDim S500000 (![] : Fin 0 → Fin S500000.rank)
  bcast_S500000_S500000x1_0 : S500000.BroadcastsInDim S500000x1 (![0] : Fin 1 → Fin S500000x1.rank)
  slices_S2x500000_S1x500000_1_0 : S2x500000.Slices ![1, 0] S1x500000
  concatenates_S500000x64_S500000x64_S500000x128_d1 : Shape.Concatenates [S500000x64, S500000x64] S500000x128 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  dot_S100000x7_S7x128_S100000x128_1_0_0_1_n_n_wf : DotDims.WF S100000x7 S7x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []
  gather_S100000x64_S500000x1_S500000x64_1_0_n_n_0_1_164_wf : GatherDims.WF S100000x64 S500000x1 S500000x64 [1] [0] [] [0] [] 1 ![1, 64]
  dot_S500000x128_S128x128_S500000x128_1_0_0_1_n_n_wf : DotDims.WF S500000x128 S128x128 S500000x128 [1] [0] [0] [1] [] []
  dot_S500000x128_S128x64_S500000x64_1_0_0_1_n_n_wf : DotDims.WF S500000x128 S128x64 S500000x64 [1] [0] [0] [1] [] []
  dot_S500000x64_S64x1_S500000x1_1_0_0_1_n_n_wf : DotDims.WF S500000x64 S64x1 S500000x1 [1] [0] [0] [1] [] []

variable [Facts₀]

def dot_S100000x7_S7x128_S100000x128_1_0_0_1_n_n : DotDims S100000x7 S7x128 S100000x128 where
  lhsContracting := [1]
  rhsContracting := [0]
  lhsNonContracting := [0]
  rhsNonContracting := [1]
  lhsBatch := []
  rhsBatch := []
  wf := dot_S100000x7_S7x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def dot_S500000x128_S128x64_S500000x64_1_0_0_1_n_n : DotDims S500000x128 S128x64 S500000x64 where
  lhsContracting := [1]
  rhsContracting := [0]
  lhsNonContracting := [0]
  rhsNonContracting := [1]
  lhsBatch := []
  rhsBatch := []
  wf := dot_S500000x128_S128x64_S500000x64_1_0_0_1_n_n_wf
def dot_S500000x64_S64x1_S500000x1_1_0_0_1_n_n : DotDims S500000x64 S64x1 S500000x1 where
  lhsContracting := [1]
  rhsContracting := [0]
  lhsNonContracting := [0]
  rhsNonContracting := [1]
  lhsBatch := []
  rhsBatch := []
  wf := dot_S500000x64_S64x1_S500000x1_1_0_0_1_n_n_wf

class Facts : Prop extends Facts₀ where

variable [Facts]
-- ==== Proof.KRun.lean ====
/-
  The kernel program's run with its result named.

  The program is four tiled kernels among stretches of host operations. Its run is the fold of the buffer contents
  through those twelve segments, from the launch memory to the return: a stretch of host operations leaves each
  buffer it writes at the operation's value, a tiled kernel leaves each of its arrays at what its write-backs leave,
  and every other buffer is untouched. Every weakly fair execution terminates without a fault, and then EVERY
  unscoped buffer holds the last contents of that fold (run_uc). Read at the result buffer this names the result;
  read at the fifteen argument buffers, which no segment writes, it gives them back unchanged (run_value).
-/
import proofs.«116931_j15522011808348_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every unscoped buffer of every core ends at the
    last contents of the fold through the twelve segments. The thread state between segments is "every unscoped
    buffer at the boundary's contents, the generator register at some state, nothing owed"; the launch memory
    gives the first one, and the last one is read against the final state buffer by buffer. -/
theorem run_uc : θ_run defs (onTc (τ := τ) (main (F := F))) ⟨m, fun _ => 0, ρ⟩
    (fun r => ∀ c : Dev nD, ∀ b ∈ Pipeline.ucRefs τ sig, r.2.mem (((c : Thread nD τ)).1, b) = W12 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h => h)

/-- The same run read at the buffers the claim speaks of: the result buffer at the fold's last contents, and each
    argument buffer, which the fold walks back to the launch memory, as launched. -/
theorem run_value : θ_run defs (onTc (τ := τ) (main (F := F))) ⟨m, fun _ => 0, ρ⟩ (fun r => ∀ c : Dev nD,
      r.2.mem ((c.tc : Thread nD τ).loc main_v135) = W12 m ρ c (Proc.devRef .tc main_v135)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c =>
    ⟨h c _ (mem_uc main_v135 (by decide)),
     (h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c),
     (h c _ (mem_uc main_arg14 (by decide))).trans (W12_main_arg14 m ρ c)⟩)
    (run_uc m ρ)

end Cert.KernelIdeal.KRun

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«116931_j15522011808348_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«116931_j15522011808348_1_alg».proof.Proof.LibMatmulPlain
import proofs.«116931_j15522011808348_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibRowLayers.lean ====
/-
  Three row-local layers over the extended reals, read at one entry of a block of rows.

  Each of the three layers below produces row R of its result from row R of its first operand alone (and from the
  whole of its small second and third operands). So when a block `a` of `m` rows agrees with the rows of a whole
  array `A` of `M` rows it was cut from — row `r` of the block is row `R` of the array —, the layer applied to the
  block, read at row `r`, is the layer applied to the whole array, read at row `R`:

  * the product with a matrix: the matrix unit's product into a zero accumulator (its operands narrowed to a shorter
    float format first, which changes nothing here) against the host's dot_general: both are Σ_k A(R,k) · B(k,q);
  * the bias and the activation: tanh (x(r,q) + b(q)), the bias held as one row and spread over the rows on one side,
    broadcast to one row and then over the rows on the other;
  * the product plus the bias: Σ_k A(R,k) · B(k,q) + b(q).

  No law of the extended reals beyond rewriting equal summands is used: the two sides are the same expression.
-/
import proofs.«116931_j15522011808348_1_alg».proof.Proof.LibMatmulPlain
import proofs.«116931_j15522011808348_1_alg».proof.Proof.LibHostDotPlain
import proofs.«116931_j15522011808348_1_alg».proof.Proof.LibDense
import Idealize.ShloMosaic.Lib.ValueLayout
import Idealize.ShloMosaic.Lib.Pipeline.Value

noncomputable section

open scoped BigOperators

namespace Idealize.ShloMosaic.RowLayers

open Idealize.ShloMosaic Idealize.ShloMosaic.ValueIdx

variable {M m K N : Nat}

/-- Row `r` of the block's product is row `R` of the whole product: the same row-by-column sums. -/
theorem product_rows (A : FVec Ideal ⟨2, ![M, K]⟩ .f32) (B : FVec Ideal ⟨2, ![K, N]⟩ .f32)
    (a : FVec Ideal ⟨2, ![m, K]⟩ .f32) (hn : FTy.bf16.bits < FTy.f32.bits) (r : Fin m) (R : Fin M) (q : Fin N)
    (ha : ∀ k : Fin K, a (ix2 r k) = A (ix2 R k)) :
    matmul (DotDims.plain m K N) none (truncf .bf16 a hn) (truncf .bf16 B hn)
        (constant (F := Ideal) ⟨2, ![m, N]⟩ .f32 0x00000000#32) (ix2 r q)
      = Host.dotGeneral (F := Ideal) (DotDims.plain M K N) none A B (ix2 R q) := by
  rw [MatmulPlain.matmul_zero_apply, HostDotPlain.dotGeneral_apply]
  refine Finset.sum_congr rfl fun k _ => ?_
  show a (ix2 r k) * B (ix2 k q) = A (ix2 R k) * B (ix2 k q)
  rw [ha k]

/-- Row `r` of tanh (block + bias) is row `R` of tanh (array + bias): tanh (x + b(q)) at equal x. -/
theorem bias_tanh_rows (X : FVec Ideal ⟨2, ![M, N]⟩ .f32) (b : FVec Ideal ⟨1, ![N]⟩ .f32)
    (x : FVec Ideal ⟨2, ![m, N]⟩ .f32)
    (hs : (⟨2, ![m, N]⟩ : Shape).ShapeCasts ⟨2, ![m, N]⟩) (hr : (⟨1, ![N]⟩ : Shape).ShapeCasts ⟨2, ![1, N]⟩)
    (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (hx : x (ix2 r q) = X (ix2 R q)) :
    tanh (addf (shapeCast ⟨2, ![m, N]⟩ x hs) (broadcastTo ⟨2, ![m, N]⟩ (shapeCast ⟨2, ![1, N]⟩ b hr) hb)) (ix2 r q)
      = Host.tanh (addf X (broadcastInDim ⟨2, ![M, N]⟩ ![0, 1] h2 (broadcastInDim ⟨2, ![1, N]⟩ ![1] h1 b))) (ix2 R q) := by
  show Ideal.tanh (shapeCast ⟨2, ![m, N]⟩ x hs (ix2 r q)
        + broadcastTo ⟨2, ![m, N]⟩ (shapeCast ⟨2, ![1, N]⟩ b hr) hb (ix2 r q))
      = Ideal.tanh (X (ix2 R q)
        + broadcastInDim ⟨2, ![M, N]⟩ ![0, 1] h2 (broadcastInDim ⟨2, ![1, N]⟩ ![1] h1 b) (ix2 R q))
  rw [shapeCast_self, broadcastTo_1b_ab_apply, shapeCast_a_1a_apply, Dense.bias_rows_apply, hx]

/-- Row `r` of the block's product plus the bias is row `R` of the whole product plus the bias. -/
theorem dense_rows (A : FVec Ideal ⟨2, ![M, K]⟩ .f32) (B : FVec Ideal ⟨2, ![K, N]⟩ .f32) (b : FVec Ideal ⟨1, ![N]⟩ .f32)
    (a : FVec Ideal ⟨2, ![m, K]⟩ .f32) (hn : FTy.bf16.bits < FTy.f32.bits)
    (hr : (⟨1, ![N]⟩ : Shape).ShapeCasts ⟨2, ![1, N]⟩) (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (ha : ∀ k : Fin K, a (ix2 r k) = A (ix2 R k)) :
    addf (matmul (DotDims.plain m K N) none (truncf .bf16 a hn) (truncf .bf16 B hn)
          (constant (F := Ideal) ⟨2, ![m, N]⟩ .f32 0x00000000#32))
        (broadcastTo ⟨2, ![m, N]⟩ (shapeCast ⟨2, ![1, N]⟩ b hr) hb) (ix2 r q)
      = addf (Host.dotGeneral (F := Ideal) (DotDims.plain M K N) none A B)
          (broadcastInDim ⟨2, ![M, N]⟩ ![0, 1] h2 (broadcastInDim ⟨2, ![1, N]⟩ ![1] h1 b)) (ix2 R q) := by
  rw [Dense.matmul_bias_apply, Dense.dot_bias_apply, shapeCast_a_1a_apply]
  congr 1
  refine Finset.sum_congr rfl fun k _ => ?_
  show a (ix2 r k) * B (ix2 k q) = A (ix2 R k) * B (ix2 k q)
  rw [ha k]

end Idealize.ShloMosaic.RowLayers

end
-- ==== Proof.KRegion0.lean ====
/-
  The first tiled kernel as one function of its arrays.

  The kernel multiplies a [100000, 7] array by a [7, 128] matrix, 5000 rows at a time over a grid of 20 points: point t
  reads rows 5000·t … 5000·t + 4999 of the left array and the whole matrix, and writes back rows 5000·t … of the
  result. Over the extended reals each entry (R, q) of a block's product is the sum over k of A(R, k) · B(k, q), which
  is the entry (R, q) of the host's whole product A · B; the 20 blocks tile the 100000 rows, so the array the kernel
  leaves IS the host's product of the arrays it found.
-/
import proofs.«116931_j15522011808348_1_alg».proof.Proof.Gen.KernelIdeal.Frame
import proofs.«116931_j15522011808348_1_alg».proof.Proof.LibRowLayers
import Idealize.ShloMosaic.Lib.Pipeline.Value
import Idealize.ShloMosaic.Lib.ValueIdx

set_option maxRecDepth 16384

noncomputable section

namespace Cert.KernelIdeal.KRegion0

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The host's whole product, with the arrays' types spelt out. -/
abbrev G (A : FVec Ideal S100000x7 .f32) (B : FVec Ideal S7x128 .f32) : FVec Ideal S100000x128 .f32 :=
  Host.dotGeneral (F := Ideal) (DotDims.plain 100000 7 128) none A B

theorem hz : (![0, 0] : Fin 2 → Nat) = fun _ => 0 := funext fun a => by fin_cases a <;> rfl

/-- The printed index maps over the grid: the row-blocked windows sit at block row t, the matrix at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block's product at an entry is the whole product at the entry of the array the block's row came from. -/
theorem pay_rows (A : FVec Ideal S100000x7 .f32) (B : FVec Ideal S7x128 .f32) (a : Vec Ideal S5000x7 .f32)
    (b : Vec Ideal S7x128 .f32) (hb : b = B) (r : Fin 5000) (R : Fin 100000) (q : Fin 128)
    (ha : ∀ k : Fin 7, a (ix2 r k) = A (ix2 R k)) :
    k0_pay1 a b (ix2 r q) = G A B (ix2 R q) := by
  subst hb
  unfold k0_pay1
  exact RowLayers.product_rows A b a _ r R q ha

variable (V : (c : Dev nD) → (b : Ref sig .tc) → Buf (Elt Ideal) ((c : Thread nD τ).loc b))

/-- The matrix window's block is the whole matrix. -/
theorem iblk_1 (c : Dev nD) (t : Fin cfg0.N) : iblk0 V c 1 t = V c main_arg3 := by
  obtain ⟨-, -, e2, e3, -, -⟩ := idx_facts t
  funext y
  show V c main_arg3 (((cfg0.win 1).blk t).view.emb y) = V c main_arg3 y
  refine congrArg _ ?_
  funext a; apply Fin.ext
  match a with
  | ⟨0, _⟩ => show win0_1.index t (0 : Fin 2) * 7 + 1 * (y 0).val = (y 0).val; omega
  | ⟨1, _⟩ => show win0_1.index t (1 : Fin 2) * 128 + 1 * (y 1).val = (y 1).val; omega

/-- Row r of the left window's block at point t is row 5000·t + r of the left array. -/
theorem iblk_0 (c : Dev nD) (t : Fin cfg0.N) (r : Fin 5000) (k : Fin 7) (R : Fin 100000) (hR : R.val = 5000 * t.val + r.val) :
    iblk0 V c 0 t (ix2 r k) = V c main_arg0 (ix2 R k) := by
  obtain ⟨e0, e1, -, -, -, -⟩ := idx_facts t
  show V c main_arg0 (((cfg0.win 0).blk t).view.emb (ix2 r k)) = V c main_arg0 (ix2 R k)
  refine congrArg _ ?_
  funext a; apply Fin.ext
  match a with
  | ⟨0, _⟩ => show win0_0.index t (0 : Fin 2) * 5000 + 1 * r.val = R.val; omega
  | ⟨1, _⟩ => show win0_0.index t (1 : Fin 2) * 7 + 1 * k.val = k.val; omega

/-- What point t writes back is block t of the host's whole product of the arrays the kernel found. -/
theorem flushed_eq (c : Dev nD) (t : Fin cfg0.N) :
    (dat0 V c).flushed 2 t = ((cfg0.win 2).blk t).view.read (Elt Ideal) (G (V c main_arg0) (V c main_arg3)) := by
  show (cfg0.win 2).cut (grid0.coords t) ((dat0 V c).after 2 t) = _
  rw [after0_2]
  unfold out0_2
  rw [View.canon_unit_zero hz]
  simp only [View.ld_unit_zero (S := S5000x7) hz, View.ld_unit_zero (S := S7x128) hz]
  obtain ⟨-, -, -, -, e4, e5⟩ := idx_facts t
  have ht : t.val < 20 := t.isLt
  funext y
  have hr : (y 0).val < 5000 := (y 0).isLt
  have hy : y = ix2 (⟨(y 0).val, hr⟩ : Fin 5000) (⟨(y 1).val, (y 1).isLt⟩ : Fin 128) := eq_ix2 y
  have hemb : ((cfg0.win 2).blk t).view.emb y
      = ix2 (⟨5000 * t.val + (y 0).val, by omega⟩ : Fin 100000) (⟨(y 1).val, (y 1).isLt⟩ : Fin 128) := by
    funext a; apply Fin.ext
    match a with
    | ⟨0, _⟩ => show win0_2.index t (0 : Fin 2) * 5000 + 1 * (y 0).val = 5000 * t.val + (y 0).val; omega
    | ⟨1, _⟩ => show win0_2.index t (1 : Fin 2) * 128 + 1 * (y 1).val = (y 1).val; omega
  show k0_pay1 (iblk0 V c 0 t) (iblk0 V c 1 t) y = _
  refine ((congrArg (k0_pay1 (iblk0 V c 0 t) (iblk0 V c 1 t)) hy).trans
    (pay_rows (V c main_arg0) (V c main_arg3) (iblk0 V c 0 t) (iblk0 V c 1 t) (iblk_1 V c t) ⟨(y 0).val, hr⟩
      ⟨5000 * t.val + (y 0).val, by omega⟩ ⟨(y 1).val, (y 1).isLt⟩
      (fun k => iblk_0 V c t ⟨(y 0).val, hr⟩ k ⟨5000 * t.val + (y 0).val, by omega⟩ rfl))).trans ?_
  show _ = G (V c main_arg0) (V c main_arg3) (((cfg0.win 2).blk t).view.emb y)
  rw [hemb]

/-- An index of the result array is in point t's block iff each coordinate is in the block's range. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v4).slice (win0_2.rect t)).set ↔ _
  rw [View.set_slice_whole, Rect.mem_set_unit]
  exact Iff.rfl

/-- The 20 blocks of 5000 rows tile the 100000 rows: row R is in the block of point R / 5000. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  refine ⟨⟨(i 0).val / 5000, by show (i 0).val / 5000 < 20; omega⟩, flush0_2 _, ?_⟩
  obtain ⟨-, -, -, -, e4, e5⟩ := idx_facts ⟨(i 0).val / 5000, by show (i 0).val / 5000 < 20; omega⟩
  rw [mem_blk]
  intro a
  match a with
  | ⟨0, _⟩ => show win0_2.index _ (0 : Fin 2) * 5000 ≤ (i 0).val ∧ (i 0).val < win0_2.index _ (0 : Fin 2) * 5000 + 5000; simp only [] at e4; omega
  | ⟨1, _⟩ => show win0_2.index _ (1 : Fin 2) * 128 ≤ (i 1).val ∧ (i 1).val < win0_2.index _ (1 : Fin 2) * 128 + 128; omega

/-- THE ARRAY the kernel leaves: the host's whole product of the arrays it found. -/
theorem final (c : Dev nD) : (dat0 V c).arrAt 2 cfg0.N = G (V c main_arg0) (V c main_arg3) :=
  (dat0 V c).arrAt_eq_of_cover 2 _ (fun t _ => flushed_eq V c t) cover

end Cert.KernelIdeal.KRegion0

end
-- ==== Proof.KRegion1.lean ====
/-
  The second tiled kernel as one function of its arrays.

  The kernel multiplies a [100000, 128] array by a [128, 128] matrix, 5000 rows at a time over a grid of 20 points:
  point t reads rows 5000·t … 5000·t + 4999 of the left array and the whole matrix, and writes back the same rows of
  the result. Each entry (R, q) of a block's product is the sum over k of A(R, k) · B(k, q), the entry (R, q) of the
  host's whole product; the 20 blocks tile the 100000 rows, so the array the kernel leaves is the host's product of
  the arrays it found.
-/
import proofs.«116931_j15522011808348_1_alg».proof.Proof.Gen.KernelIdeal.Frame
import proofs.«116931_j15522011808348_1_alg».proof.Proof.LibRowLayers
import Idealize.ShloMosaic.Lib.Pipeline.Value
import Idealize.ShloMosaic.Lib.ValueIdx

set_option maxRecDepth 16384

noncomputable section

namespace Cert.KernelIdeal.KRegion1

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The host's whole product, with the arrays' types spelt out. -/
abbrev G (A : FVec Ideal S100000x128 .f32) (B : FVec Ideal S128x128 .f32) : FVec Ideal S100000x128 .f32 :=
  Host.dotGeneral (F := Ideal) (DotDims.plain 100000 128 128) none A B

theorem hz : (![0, 0] : Fin 2 → Nat) = fun _ => 0 := funext fun a => by fin_cases a <;> rfl

/-- The printed index maps over the grid: the row-blocked windows sit at block row t, the matrix at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One block's product at an entry is the whole product at the entry of the array the block's row came from (the
    block's cast to its own shape changes nothing). -/
theorem pay_rows (A : FVec Ideal S100000x128 .f32) (B : FVec Ideal S128x128 .f32) (a : Vec Ideal S5000x128 .f32)
    (b : Vec Ideal S128x128 .f32) (hb : b = B) (r : Fin 5000) (R : Fin 100000) (q : Fin 128)
    (ha : ∀ k : Fin 128, a (ix2 r k) = A (ix2 R k)) :
    k1_pay1 a b (ix2 r q) = G A B (ix2 R q) := by
  subst hb
  unfold k1_pay1
  rw [shapeCast_self]
  exact RowLayers.product_rows A b a _ r R q ha

variable (V : (c : Dev nD) → (b : Ref sig .tc) → Buf (Elt Ideal) ((c : Thread nD τ).loc b))

/-- The matrix window's block is the whole matrix. -/
theorem iblk_1 (c : Dev nD) (t : Fin cfg1.N) : iblk1 V c 1 t = V c main_arg5 := by
  obtain ⟨-, -, e2, e3, -, -⟩ := idx_facts t
  funext y
  show V c main_arg5 (((cfg1.win 1).blk t).view.emb y) = V c main_arg5 y
  refine congrArg _ ?_
  funext a; apply Fin.ext
  match a with
  | ⟨0, _⟩ => show win1_1.index t (0 : Fin 2) * 128 + 1 * (y 0).val = (y 0).val; omega
  | ⟨1, _⟩ => show win1_1.index t (1 : Fin 2) * 128 + 1 * (y 1).val = (y 1).val; omega

/-- Row r of the left window's block at point t is row 5000·t + r of the left array. -/
theorem iblk_0 (c : Dev nD) (t : Fin cfg1.N) (r : Fin 5000) (k : Fin 128) (R : Fin 100000) (hR : R.val = 5000 * t.val + r.val) :
    iblk1 V c 0 t (ix2 r k) = V c main_v56 (ix2 R k) := by
  obtain ⟨e0, e1, -, -, -, -⟩ := idx_facts t
  show V c main_v56 (((cfg1.win 0).blk t).view.emb (ix2 r k)) = V c main_v56 (ix2 R k)
  refine congrArg _ ?_
  funext a; apply Fin.ext
  match a with
  | ⟨0, _⟩ => show win1_0.index t (0 : Fin 2) * 5000 + 1 * r.val = R.val; omega
  | ⟨1, _⟩ => show win1_0.index t (1 : Fin 2) * 128 + 1 * k.val = k.val; omega

/-- What point t writes back is block t of the host's whole product of the arrays the kernel found. -/
theorem flushed_eq (c : Dev nD) (t : Fin cfg1.N) :
    (dat1 V c).flushed 2 t = ((cfg1.win 2).blk t).view.read (Elt Ideal) (G (V c main_v56) (V c main_arg5)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e4, e5⟩ := idx_facts t
  have ht : t.val < 20 := t.isLt
  funext y
  have hr : (y 0).val < 5000 := (y 0).isLt
  have hy : y = ix2 (⟨(y 0).val, hr⟩ : Fin 5000) (⟨(y 1).val, (y 1).isLt⟩ : Fin 128) := eq_ix2 y
  have hemb : ((cfg1.win 2).blk t).view.emb y
      = ix2 (⟨5000 * t.val + (y 0).val, by omega⟩ : Fin 100000) (⟨(y 1).val, (y 1).isLt⟩ : Fin 128) := by
    funext a; apply Fin.ext
    match a with
    | ⟨0, _⟩ => show win1_2.index t (0 : Fin 2) * 5000 + 1 * (y 0).val = 5000 * t.val + (y 0).val; omega
    | ⟨1, _⟩ => show win1_2.index t (1 : Fin 2) * 128 + 1 * (y 1).val = (y 1).val; omega
  show k1_pay1 (iblk1 V c 0 t) (iblk1 V c 1 t) y = _
  refine ((congrArg (k1_pay1 (iblk1 V c 0 t) (iblk1 V c 1 t)) hy).trans
    (pay_rows (V c main_v56) (V c main_arg5) (iblk1 V c 0 t) (iblk1 V c 1 t) (iblk_1 V c t) ⟨(y 0).val, hr⟩
      ⟨5000 * t.val + (y 0).val, by omega⟩ ⟨(y 1).val, (y 1).isLt⟩
      (fun k => iblk_0 V c t ⟨(y 0).val, hr⟩ k ⟨5000 * t.val + (y 0).val, by omega⟩ rfl))).trans ?_
  show _ = G (V c main_v56) (V c main_arg5) (((cfg1.win 2).blk t).view.emb y)
  rw [hemb]

/-- An index of the result array is in point t's block iff each coordinate is in the block's range. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v57).slice (win1_2.rect t)).set ↔ _
  rw [View.set_slice_whole, Rect.mem_set_unit]
  exact Iff.rfl

/-- The 20 blocks of 5000 rows tile the 100000 rows: row R is in the block of point R / 5000. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  refine ⟨⟨(i 0).val / 5000, by show (i 0).val / 5000 < 20; omega⟩, flush1_2 _, ?_⟩
  obtain ⟨-, -, -, -, e4, e5⟩ := idx_facts ⟨(i 0).val / 5000, by show (i 0).val / 5000 < 20; omega⟩
  rw [mem_blk]
  intro a
  match a with
  | ⟨0, _⟩ => show win1_2.index _ (0 : Fin 2) * 5000 ≤ (i 0).val ∧ (i 0).val < win1_2.index _ (0 : Fin 2) * 5000 + 5000; simp only [] at e4; omega
  | ⟨1, _⟩ => show win1_2.index _ (1 : Fin 2) * 128 ≤ (i 1).val ∧ (i 1).val < win1_2.index _ (1 : Fin 2) * 128 + 128; omega

/-- THE ARRAY the kernel leaves: the host's whole product of the arrays it found. -/
theorem final (c : Dev nD) : (dat1 V c).arrAt 2 cfg1.N = G (V c main_v56) (V c main_arg5) :=
  (dat1 V c).arrAt_eq_of_cover 2 _ (fun t _ => flushed_eq V c t) cover

end Cert.KernelIdeal.KRegion1

end
-- ==== Proof.KRegion2.lean ====
/-
  The third tiled kernel as one function of its arrays.

  The kernel multiplies a [100000, 128] array by a [128, 64] matrix and adds a bias row, 5000 rows at a time over a
  grid of 20 points: point t reads rows 5000·t … 5000·t + 4999 of the left array, the whole matrix and the [1, 64]
  bias row (a [64] vector given a unit axis by the host), and writes back the same rows of the result. Each entry
  (R, q) of a block's result is the sum over k of A(R, k) · B(k, q) plus bias(q), the entry (R, q) of the host's whole
  product plus the bias vector broadcast over the rows; the 20 blocks tile the 100000 rows.
-/
import proofs.«116931_j15522011808348_1_alg».proof.Proof.Gen.KernelIdeal.Frame
import proofs.«116931_j15522011808348_1_alg».proof.Proof.LibRowLayers
import Idealize.ShloMosaic.Lib.Pipeline.Value
import Idealize.ShloMosaic.Lib.ValueIdx

set_option maxRecDepth 16384

noncomputable section

namespace Cert.KernelIdeal.KRegion2

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The host's whole dense layer: the product plus the bias vector broadcast to a row and then over the rows. -/
abbrev G (h1 : S64.BroadcastsInDim S1x64 ![1]) (h2 : S1x64.BroadcastsInDim S100000x64 ![0, 1])
    (A : FVec Ideal S100000x128 .f32) (B : FVec Ideal S128x64 .f32) (bias : FVec Ideal S64 .f32) : FVec Ideal S100000x64 .f32 :=
  addf (Host.dotGeneral (F := Ideal) (DotDims.plain 100000 128 64) none A B)
    (broadcastInDim S100000x64 ![0, 1] h2 (broadcastInDim S1x64 ![1] h1 bias))

theorem hz : (![0, 0] : Fin 2 → Nat) = fun _ => 0 := funext fun a => by fin_cases a <;> rfl

/-- The printed index maps over the grid: the row-blocked windows sit at block row t, the matrix and the bias row at
    block (0, 0). -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One block's dense layer at an entry is the whole dense layer at the entry of the array the block's row came from. -/
theorem pay_rows (h1 : S64.BroadcastsInDim S1x64 ![1]) (h2 : S1x64.BroadcastsInDim S100000x64 ![0, 1])
    (hr : S64.ShapeCasts S1x64)
    (A : FVec Ideal S100000x128 .f32) (B : FVec Ideal S128x64 .f32) (bias : FVec Ideal S64 .f32)
    (a : Vec Ideal S5000x128 .f32) (b : Vec Ideal S128x64 .f32) (bb : Vec Ideal S1x64 .f32)
    (hb : b = B) (hbb : bb = shapeCast S1x64 bias hr) (r : Fin 5000) (R : Fin 100000) (q : Fin 64)
    (ha : ∀ k : Fin 128, a (ix2 r k) = A (ix2 R k)) :
    k2_pay1 a b bb (ix2 r q) = G h1 h2 A B bias (ix2 R q) := by
  subst hb; subst hbb
  unfold k2_pay1
  rw [shapeCast_self, shapeCast_self]
  exact RowLayers.dense_rows A b bias a _ hr _ h1 h2 r R q ha

variable (V : (c : Dev nD) → (b : Ref sig .tc) → Buf (Elt Ideal) ((c : Thread nD τ).loc b))

/-- The matrix window's block is the whole matrix. -/
theorem iblk_1 (c : Dev nD) (t : Fin cfg2.N) : iblk2 V c 1 t = V c main_arg7 := by
  obtain ⟨-, -, e2, e3, -, -, -, -⟩ := idx_facts t
  funext y
  show V c main_arg7 (((cfg2.win 1).blk t).view.emb y) = V c main_arg7 y
  refine congrArg _ ?_
  funext a; apply Fin.ext
  match a with
  | ⟨0, _⟩ => show win2_1.index t (0 : Fin 2) * 128 + 1 * (y 0).val = (y 0).val; omega
  | ⟨1, _⟩ => show win2_1.index t (1 : Fin 2) * 64 + 1 * (y 1).val = (y 1).val; omega

/-- The bias window's block is the whole bias row. -/
theorem iblk_2 (c : Dev nD) (t : Fin cfg2.N) : iblk2 V c 2 t = V c main_v110 := by
  obtain ⟨-, -, -, -, e4, e5, -, -⟩ := idx_facts t
  funext y
  show V c main_v110 (((cfg2.win 2).blk t).view.emb y) = V c main_v110 y
  refine congrArg _ ?_
  funext a; apply Fin.ext
  match a with
  | ⟨0, _⟩ => show win2_2.index t (0 : Fin 2) * 1 + 1 * (y 0).val = (y 0).val; omega
  | ⟨1, _⟩ => show win2_2.index t (1 : Fin 2) * 64 + 1 * (y 1).val = (y 1).val; omega

/-- Row r of the left window's block at point t is row 5000·t + r of the left array. -/
theorem iblk_0 (c : Dev nD) (t : Fin cfg2.N) (r : Fin 5000) (k : Fin 128) (R : Fin 100000) (hR : R.val = 5000 * t.val + r.val) :
    iblk2 V c 0 t (ix2 r k) = V c main_v109 (ix2 R k) := by
  obtain ⟨e0, e1, -, -, -, -, -, -⟩ := idx_facts t
  show V c main_v109 (((cfg2.win 0).blk t).view.emb (ix2 r k)) = V c main_v109 (ix2 R k)
  refine congrArg _ ?_
  funext a; apply Fin.ext
  match a with
  | ⟨0, _⟩ => show win2_0.index t (0 : Fin 2) * 5000 + 1 * r.val = R.val; omega
  | ⟨1, _⟩ => show win2_0.index t (1 : Fin 2) * 128 + 1 * k.val = k.val; omega

/-- What point t writes back is block t of the host's whole dense layer of the arrays the kernel found, when the bias
    row it found is a bias vector given a unit axis. -/
theorem flushed_eq (h1 : S64.BroadcastsInDim S1x64 ![1]) (h2 : S1x64.BroadcastsInDim S100000x64 ![0, 1])
    (hr : S64.ShapeCasts S1x64) (c : Dev nD) (bias : FVec Ideal S64 .f32)
    (hbias : V c main_v110 = shapeCast S1x64 bias hr) (t : Fin cfg2.N) :
    (dat2 V c).flushed 3 t = ((cfg2.win 3).blk t).view.read (Elt Ideal) (G h1 h2 (V c main_v109) (V c main_arg7) bias) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x64) hz, View.ld_unit_zero (S := S1x64) hz]
  obtain ⟨-, -, -, -, -, -, e6, e7⟩ := idx_facts t
  have ht : t.val < 20 := t.isLt
  funext y
  have hr0 : (y 0).val < 5000 := (y 0).isLt
  have hy : y = ix2 (⟨(y 0).val, hr0⟩ : Fin 5000) (⟨(y 1).val, (y 1).isLt⟩ : Fin 64) := eq_ix2 y
  have hemb : ((cfg2.win 3).blk t).view.emb y
      = ix2 (⟨5000 * t.val + (y 0).val, by omega⟩ : Fin 100000) (⟨(y 1).val, (y 1).isLt⟩ : Fin 64) := by
    funext a; apply Fin.ext
    match a with
    | ⟨0, _⟩ => show win2_3.index t (0 : Fin 2) * 5000 + 1 * (y 0).val = 5000 * t.val + (y 0).val; omega
    | ⟨1, _⟩ => show win2_3.index t (1 : Fin 2) * 64 + 1 * (y 1).val = (y 1).val; omega
  show k2_pay1 (iblk2 V c 0 t) (iblk2 V c 1 t) (iblk2 V c 2 t) y = _
  refine ((congrArg (k2_pay1 (iblk2 V c 0 t) (iblk2 V c 1 t) (iblk2 V c 2 t)) hy).trans
    (pay_rows h1 h2 hr (V c main_v109) (V c main_arg7) bias (iblk2 V c 0 t) (iblk2 V c 1 t) (iblk2 V c 2 t)
      (iblk_1 V c t) ((iblk_2 V c t).trans hbias) ⟨(y 0).val, hr0⟩
      ⟨5000 * t.val + (y 0).val, by omega⟩ ⟨(y 1).val, (y 1).isLt⟩
      (fun k => iblk_0 V c t ⟨(y 0).val, hr0⟩ k ⟨5000 * t.val + (y 0).val, by omega⟩ rfl))).trans ?_
  show _ = G h1 h2 (V c main_v109) (V c main_arg7) bias (((cfg2.win 3).blk t).view.emb y)
  rw [hemb]

/-- An index of the result array is in point t's block iff each coordinate is in the block's range. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v111).slice (win2_3.rect t)).set ↔ _
  rw [View.set_slice_whole, Rect.mem_set_unit]
  exact Iff.rfl

/-- The 20 blocks of 5000 rows tile the 100000 rows: row R is in the block of point R / 5000. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  refine ⟨⟨(i 0).val / 5000, by show (i 0).val / 5000 < 20; omega⟩, flush2_3 _, ?_⟩
  obtain ⟨-, -, -, -, -, -, e6, e7⟩ := idx_facts ⟨(i 0).val / 5000, by show (i 0).val / 5000 < 20; omega⟩
  rw [mem_blk]
  intro a
  match a with
  | ⟨0, _⟩ => show win2_3.index _ (0 : Fin 2) * 5000 ≤ (i 0).val ∧ (i 0).val < win2_3.index _ (0 : Fin 2) * 5000 + 5000; simp only [] at e6; omega
  | ⟨1, _⟩ => show win2_3.index _ (1 : Fin 2) * 64 ≤ (i 1).val ∧ (i 1).val < win2_3.index _ (1 : Fin 2) * 64 + 64; omega

/-- THE ARRAY the kernel leaves: the host's whole dense layer of the arrays it found. -/
theorem final (h1 : S64.BroadcastsInDim S1x64 ![1]) (h2 : S1x64.BroadcastsInDim S100000x64 ![0, 1])
    (hr : S64.ShapeCasts S1x64) (c : Dev nD) (bias : FVec Ideal S64 .f32)
    (hbias : V c main_v110 = shapeCast S1x64 bias hr) :
    (dat2 V c).arrAt 3 cfg2.N = G h1 h2 (V c main_v109) (V c main_arg7) bias :=
  (dat2 V c).arrAt_eq_of_cover 3 _ (fun t _ => flushed_eq V h1 h2 hr c bias hbias t) cover

end Cert.KernelIdeal.KRegion2

end
-- ==== Proof.LibReluLayers.lean ====
/-
  Row-local layers with a rectifier, over the extended reals, read at one entry of a block of rows.

  The rectifier is the maximum with zero, entry by entry. Written for the vector unit it is the maximum with a zero scalar
  spread over the block; written for the host it is the maximum with a zero constant broadcast over the array. Both are
  max (x, 0) at every entry, so a rectified layer applied to a block of rows, read at row r, is the layer applied to the
  whole array, read at the row R the block's row r was cut from:

  * the bias and the rectifier: max (x(r,q) + b(q), 0);
  * a two-layer perceptron head on whole arrays: max (Σ_j P(p,j) · U(j,k) + u(k), 0) rectified, then
    Σ_k (…) · W(k,q) + w(q).

  No law of the extended reals beyond rewriting equal summands is used.
-/
import proofs.«116931_j15522011808348_1_alg».proof.Proof.LibRowLayers

noncomputable section

open scoped BigOperators

namespace Idealize.ShloMosaic.ReluLayers

open Idealize.ShloMosaic Idealize.ShloMosaic.ValueIdx

variable {M m K N L : Nat}

/-- The zero scalar spread over a block and the zero constant broadcast over an array agree at every pair of entries. -/
theorem zero_splat_eq (h0 : (⟨0, ![]⟩ : Shape).BroadcastsInDim ⟨2, ![M, N]⟩ ![]) (j : (⟨2, ![m, N]⟩ : Shape).Idx)
    (J : (⟨2, ![M, N]⟩ : Shape).Idx) :
    broadcast ⟨2, ![m, N]⟩ (Scalar.ofBits (F := Ideal) .f32 0x00000000#32) j
      = broadcastInDim ⟨2, ![M, N]⟩ ![] h0 (constant (F := Ideal) ⟨0, ![]⟩ .f32 0x00000000#32) J := rfl

/-- The rectifier on a block against the rectifier on the array: equal where the operands are. -/
theorem relu_rows (X : FVec Ideal ⟨2, ![M, N]⟩ .f32) (x : FVec Ideal ⟨2, ![m, N]⟩ .f32)
    (h0 : (⟨0, ![]⟩ : Shape).BroadcastsInDim ⟨2, ![M, N]⟩ ![])
    (j : (⟨2, ![m, N]⟩ : Shape).Idx) (J : (⟨2, ![M, N]⟩ : Shape).Idx) (hx : x j = X J) :
    maximumf x (broadcast ⟨2, ![m, N]⟩ (Scalar.ofBits (F := Ideal) .f32 0x00000000#32)) j
      = maximumf X (broadcastInDim ⟨2, ![M, N]⟩ ![] h0 (constant (F := Ideal) ⟨0, ![]⟩ .f32 0x00000000#32)) J := by
  show FloatOps.maximumf (x j) (broadcast ⟨2, ![m, N]⟩ (Scalar.ofBits (F := Ideal) .f32 0x00000000#32) j)
    = FloatOps.maximumf (X J) (broadcastInDim ⟨2, ![M, N]⟩ ![] h0 (constant (F := Ideal) ⟨0, ![]⟩ .f32 0x00000000#32) J)
  rw [hx, zero_splat_eq h0 j J]

/-- Row r of the rectified (block + bias) is row R of the rectified (array + bias). -/
theorem bias_relu_rows (X : FVec Ideal ⟨2, ![M, N]⟩ .f32) (b : FVec Ideal ⟨1, ![N]⟩ .f32)
    (x : FVec Ideal ⟨2, ![m, N]⟩ .f32)
    (hs : (⟨2, ![m, N]⟩ : Shape).ShapeCasts ⟨2, ![m, N]⟩) (hr : (⟨1, ![N]⟩ : Shape).ShapeCasts ⟨2, ![1, N]⟩)
    (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (r : Fin m) (R : Fin M) (q : Fin N) (hx : x (ix2 r q) = X (ix2 R q)) :
    maximumf (addf (shapeCast ⟨2, ![m, N]⟩ x hs) (broadcastTo ⟨2, ![m, N]⟩ (shapeCast ⟨2, ![1, N]⟩ b hr) hb))
        (broadcast ⟨2, ![m, N]⟩ (Scalar.ofBits (F := Ideal) .f32 0x00000000#32)) (ix2 r q)
      = maximumf (addf X (broadcastInDim ⟨2, ![M, N]⟩ ![0, 1] h2 (broadcastInDim ⟨2, ![1, N]⟩ ![1] h1 b)))
          (broadcastInDim ⟨2, ![M, N]⟩ ![] h0 (constant (F := Ideal) ⟨0, ![]⟩ .f32 0x00000000#32)) (ix2 R q) := by
  refine relu_rows _ _ h0 (ix2 r q) (ix2 R q) ?_
  show shapeCast ⟨2, ![m, N]⟩ x hs (ix2 r q) + broadcastTo ⟨2, ![m, N]⟩ (shapeCast ⟨2, ![1, N]⟩ b hr) hb (ix2 r q)
      = X (ix2 R q) + broadcastInDim ⟨2, ![M, N]⟩ ![0, 1] h2 (broadcastInDim ⟨2, ![1, N]⟩ ![1] h1 b) (ix2 R q)
  rw [shapeCast_self, broadcastTo_1b_ab_apply, shapeCast_a_1a_apply, Dense.bias_rows_apply, hx]

/-- A two-layer perceptron head on whole arrays, the matrix unit's spelling against the host's: the first dense layer
    rectified, then the second dense layer. Entry (p, q) of both is Σ_k max (Σ_j P(p,j) · U(j,k) + u(k), 0) · W(k,q) + w(q). -/
theorem head_eq (P : FVec Ideal ⟨2, ![M, K]⟩ .f32) (U : FVec Ideal ⟨2, ![K, L]⟩ .f32) (u : FVec Ideal ⟨1, ![L]⟩ .f32)
    (W : FVec Ideal ⟨2, ![L, N]⟩ .f32) (w : FVec Ideal ⟨1, ![N]⟩ .f32) (hn : FTy.bf16.bits < FTy.f32.bits)
    (hs : (⟨2, ![M, K]⟩ : Shape).ShapeCasts ⟨2, ![M, K]⟩)
    (hru : (⟨1, ![L]⟩ : Shape).ShapeCasts ⟨2, ![1, L]⟩) (hbu : (⟨2, ![1, L]⟩ : Shape).Broadcasts ⟨2, ![M, L]⟩)
    (h1u : (⟨1, ![L]⟩ : Shape).BroadcastsInDim ⟨2, ![1, L]⟩ ![1])
    (h2u : (⟨2, ![1, L]⟩ : Shape).BroadcastsInDim ⟨2, ![M, L]⟩ ![0, 1])
    (h0 : (⟨0, ![]⟩ : Shape).BroadcastsInDim ⟨2, ![M, L]⟩ ![])
    (hrw : (⟨1, ![N]⟩ : Shape).ShapeCasts ⟨2, ![1, N]⟩) (hbw : (⟨2, ![1, N]⟩ : Shape).Broadcasts ⟨2, ![M, N]⟩)
    (h1w : (⟨1, ![N]⟩ : Shape).BroadcastsInDim ⟨2, ![1, N]⟩ ![1])
    (h2w : (⟨2, ![1, N]⟩ : Shape).BroadcastsInDim ⟨2, ![M, N]⟩ ![0, 1]) :
    addf (matmul (DotDims.plain M L N) none
          (truncf .bf16 (maximumf (addf (matmul (DotDims.plain M K L) none (truncf .bf16 (shapeCast ⟨2, ![M, K]⟩ P hs) hn) (truncf .bf16 U hn)
                (constant (F := Ideal) ⟨2, ![M, L]⟩ .f32 0x00000000#32))
              (broadcastTo ⟨2, ![M, L]⟩ (shapeCast ⟨2, ![1, L]⟩ u hru) hbu))
            (broadcast ⟨2, ![M, L]⟩ (Scalar.ofBits (F := Ideal) .f32 0x00000000#32))) hn)
          (truncf .bf16 W hn) (constant (F := Ideal) ⟨2, ![M, N]⟩ .f32 0x00000000#32))
        (broadcastTo ⟨2, ![M, N]⟩ (shapeCast ⟨2, ![1, N]⟩ w hrw) hbw)
      = addf (Host.dotGeneral (F := Ideal) (DotDims.plain M L N) none
          (maximumf (addf (Host.dotGeneral (F := Ideal) (DotDims.plain M K L) none P U)
              (broadcastInDim ⟨2, ![M, L]⟩ ![0, 1] h2u (broadcastInDim ⟨2, ![1, L]⟩ ![1] h1u u)))
            (broadcastInDim ⟨2, ![M, L]⟩ ![] h0 (constant (F := Ideal) ⟨0, ![]⟩ .f32 0x00000000#32))) W)
          (broadcastInDim ⟨2, ![M, N]⟩ ![0, 1] h2w (broadcastInDim ⟨2, ![1, N]⟩ ![1] h1w w)) := by
  funext j
  obtain ⟨p, q, rfl⟩ : ∃ (p : Fin M) (q : Fin N), j = ix2 p q := ⟨j 0, j 1, eq_ix2 j⟩
  refine RowLayers.dense_rows _ W w _ hn hrw hbw h1w h2w p p q fun k => ?_
  refine relu_rows _ _ h0 (ix2 p k) (ix2 p k) ?_
  rw [shapeCast_self]
  exact RowLayers.dense_rows P U u P hn hru hbu h1u h2u p p k fun _ => rfl

end Idealize.ShloMosaic.ReluLayers

end
-- ==== Proof.KRegion3.lean ====
/-
  The fourth tiled kernel, the decoder, as one function of its arrays.

  The kernel takes 5000 rows of the [500000, 128] array of concatenated embeddings at each of its 100 grid points and
  computes, row by row, a three-layer perceptron and the logistic function:
      d1 = max (z · W1 + b1, 0),   d2 = max (d1 · W2 + b2, 0),   out = logistic (d2 · W3 + b3),
  the weights whole at every point and each bias a [1, n] row (a vector given a unit axis by the host). Every layer
  produces row R of its result from row R of its operand alone, so a block's layer read at row r is the host's whole
  layer read at the row R = 5000·t + r the block's row came from: three times "product plus bias" and twice the
  rectifier, the same expression on both sides; the logistic function is applied to equal arguments. The 100 blocks
  tile the 500000 rows, so the [500000, 1] column the kernel leaves is the host-spelt perceptron of the arrays it found.
-/
import proofs.«116931_j15522011808348_1_alg».proof.Proof.Gen.KernelIdeal.Frame
import proofs.«116931_j15522011808348_1_alg».proof.Proof.LibRowLayers
import proofs.«116931_j15522011808348_1_alg».proof.Proof.LibReluLayers
import Idealize.ShloMosaic.Lib.Pipeline.Value
import Idealize.ShloMosaic.Lib.ValueIdx

set_option maxRecDepth 16384

noncomputable section

namespace Cert.KernelIdeal.KRegion3

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The side conditions of the host's broadcasts and of the casts that give a bias vector its unit axis. -/
structure Ev : Prop where
  h1a : S128.BroadcastsInDim S1x128 ![1]
  h2a : S1x128.BroadcastsInDim S500000x128 ![0, 1]
  h0a : S_.BroadcastsInDim S500000x128 ![]
  h1b : S64.BroadcastsInDim S1x64 ![1]
  h2b : S1x64.BroadcastsInDim S500000x64 ![0, 1]
  h0b : S_.BroadcastsInDim S500000x64 ![]
  h1c : S1.BroadcastsInDim S1x1 ![1]
  h2c : S1x1.BroadcastsInDim S500000x1 ![0, 1]
  hr1 : S128.ShapeCasts S1x128
  hr2 : S64.ShapeCasts S1x64
  hr3 : S1.ShapeCasts S1x1

variable (ev : Ev)

/-- First layer on whole arrays: max (Z · W1 + b1, 0). -/
abbrev D1 (Z : FVec Ideal S500000x128 .f32) (W1 : FVec Ideal S128x128 .f32) (b1 : FVec Ideal S128 .f32) : FVec Ideal S500000x128 .f32 :=
  maximumf (addf (Host.dotGeneral (F := Ideal) (DotDims.plain 500000 128 128) none Z W1)
      (broadcastInDim S500000x128 ![0, 1] ev.h2a (broadcastInDim S1x128 ![1] ev.h1a b1)))
    (broadcastInDim S500000x128 ![] ev.h0a (constant (F := Ideal) S_ .f32 0x00000000#32))
/-- Second layer on whole arrays: max (D · W2 + b2, 0). -/
abbrev D2 (D : FVec Ideal S500000x128 .f32) (W2 : FVec Ideal S128x64 .f32) (b2 : FVec Ideal S64 .f32) : FVec Ideal S500000x64 .f32 :=
  maximumf (addf (Host.dotGeneral (F := Ideal) (DotDims.plain 500000 128 64) none D W2)
      (broadcastInDim S500000x64 ![0, 1] ev.h2b (broadcastInDim S1x64 ![1] ev.h1b b2)))
    (broadcastInDim S500000x64 ![] ev.h0b (constant (F := Ideal) S_ .f32 0x00000000#32))
/-- The logits on whole arrays: D · W3 + b3. -/
abbrev LG (D : FVec Ideal S500000x64 .f32) (W3 : FVec Ideal S64x1 .f32) (b3 : FVec Ideal S1 .f32) : FVec Ideal S500000x1 .f32 :=
  addf (Host.dotGeneral (F := Ideal) (DotDims.plain 500000 64 1) none D W3)
    (broadcastInDim S500000x1 ![0, 1] ev.h2c (broadcastInDim S1x1 ![1] ev.h1c b3))
/-- The logits of the whole perceptron. -/
abbrev logits (Z : FVec Ideal S500000x128 .f32) (W1 : FVec Ideal S128x128 .f32) (b1 : FVec Ideal S128 .f32)
    (W2 : FVec Ideal S128x64 .f32) (b2 : FVec Ideal S64 .f32) (W3 : FVec Ideal S64x1 .f32) (b3 : FVec Ideal S1 .f32) :
    FVec Ideal S500000x1 .f32 :=
  LG ev (D2 ev (D1 ev Z W1 b1) W2 b2) W3 b3

theorem hz : (![0, 0] : Fin 2 → Nat) = fun _ => 0 := funext fun a => by fin_cases a <;> rfl

/-- The printed index maps over the grid: the two row-blocked windows sit at block row t, every weight and bias at
    block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- One block's perceptron at an entry is the logistic function of the whole perceptron's logit at the entry of the
    array the block's row came from. -/
theorem pay_rows (Z : FVec Ideal S500000x128 .f32) (W1 : FVec Ideal S128x128 .f32) (b1 : FVec Ideal S128 .f32)
    (W2 : FVec Ideal S128x64 .f32) (b2 : FVec Ideal S64 .f32) (W3 : FVec Ideal S64x1 .f32) (b3 : FVec Ideal S1 .f32)
    (z : Vec Ideal S5000x128 .f32) (w1 : Vec Ideal S128x128 .f32) (c1 : Vec Ideal S1x128 .f32)
    (w2 : Vec Ideal S128x64 .f32) (c2 : Vec Ideal S1x64 .f32) (w3 : Vec Ideal S64x1 .f32) (c3 : Vec Ideal S1x1 .f32)
    (hw1 : w1 = W1) (hc1 : c1 = shapeCast S1x128 b1 ev.hr1) (hw2 : w2 = W2) (hc2 : c2 = shapeCast S1x64 b2 ev.hr2)
    (hw3 : w3 = W3) (hc3 : c3 = shapeCast S1x1 b3 ev.hr3)
    (r : Fin 5000) (R : Fin 500000) (q : Fin 1) (hzZ : ∀ k : Fin 128, z (ix2 r k) = Z (ix2 R k)) :
    k3_pay1 z w1 c1 w2 c2 w3 c3 (ix2 r q) = Ideal.logistic (logits ev Z W1 b1 W2 b2 W3 b3 (ix2 R q)) := by
  subst hw1; subst hc1; subst hw2; subst hc2; subst hw3; subst hc3
  unfold k3_pay1
  simp only [shapeCast_self]
  show FloatOps.logistic (F := Ideal) (φ := .f32) _ = FloatOps.logistic (F := Ideal) (φ := .f32) _
  refine congrArg (FloatOps.logistic (F := Ideal) (φ := .f32)) ?_
  refine RowLayers.dense_rows (D2 ev (D1 ev Z w1 b1) w2 b2) w3 b3 _ _ ev.hr3 _ ev.h1c ev.h2c r R q (fun k => ?_)
  refine ReluLayers.relu_rows _ _ ev.h0b (ix2 r k) (ix2 R k) ?_
  refine RowLayers.dense_rows (D1 ev Z w1 b1) w2 b2 _ _ ev.hr2 _ ev.h1b ev.h2b r R k (fun k' => ?_)
  refine ReluLayers.relu_rows _ _ ev.h0a (ix2 r k') (ix2 R k') ?_
  exact RowLayers.dense_rows Z w1 b1 z _ ev.hr1 _ ev.h1a ev.h2a r R k' hzZ

variable (V : (c : Dev nD) → (b : Ref sig .tc) → Buf (Elt Ideal) ((c : Thread nD τ).loc b))

/-- A weight or bias window's block is the whole array: its block index is (0, 0) and its block the array's shape. -/
theorem iblk_1 (c : Dev nD) (t : Fin cfg3.N) : iblk3 V c 1 t = V c main_arg9 := by
  obtain ⟨-, -, e2, e3, -⟩ := idx_facts t
  funext y
  show V c main_arg9 (((cfg3.win 1).blk t).view.emb y) = V c main_arg9 y
  refine congrArg _ ?_
  funext a; apply Fin.ext
  match a with
  | ⟨0, _⟩ => show win3_1.index t (0 : Fin 2) * 128 + 1 * (y 0).val = (y 0).val; omega
  | ⟨1, _⟩ => show win3_1.index t (1 : Fin 2) * 128 + 1 * (y 1).val = (y 1).val; omega
theorem iblk_2 (c : Dev nD) (t : Fin cfg3.N) : iblk3 V c 2 t = V c main_v131 := by
  obtain ⟨-, -, -, -, e4, e5, -⟩ := idx_facts t
  funext y
  show V c main_v131 (((cfg3.win 2).blk t).view.emb y) = V c main_v131 y
  refine congrArg _ ?_
  funext a; apply Fin.ext
  match a with
  | ⟨0, _⟩ => show win3_2.index t (0 : Fin 2) * 1 + 1 * (y 0).val = (y 0).val; omega
  | ⟨1, _⟩ => show win3_2.index t (1 : Fin 2) * 128 + 1 * (y 1).val = (y 1).val; omega
theorem iblk_3 (c : Dev nD) (t : Fin cfg3.N) : iblk3 V c 3 t = V c main_arg11 := by
  obtain ⟨-, -, -, -, -, -, e6, e7, -⟩ := idx_facts t
  funext y
  show V c main_arg11 (((cfg3.win 3).blk t).view.emb y) = V c main_arg11 y
  refine congrArg _ ?_
  funext a; apply Fin.ext
  match a with
  | ⟨0, _⟩ => show win3_3.index t (0 : Fin 2) * 128 + 1 * (y 0).val = (y 0).val; omega
  | ⟨1, _⟩ => show win3_3.index t (1 : Fin 2) * 64 + 1 * (y 1).val = (y 1).val; omega
theorem iblk_4 (c : Dev nD) (t : Fin cfg3.N) : iblk3 V c 4 t = V c main_v132 := by
  obtain ⟨-, -, -, -, -, -, -, -, e8, e9, -⟩ := idx_facts t
  funext y
  show V c main_v132 (((cfg3.win 4).blk t).view.emb y) = V c main_v132 y
  refine congrArg _ ?_
  funext a; apply Fin.ext
  match a with
  | ⟨0, _⟩ => show win3_4.index t (0 : Fin 2) * 1 + 1 * (y 0).val = (y 0).val; omega
  | ⟨1, _⟩ => show win3_4.index t (1 : Fin 2) * 64 + 1 * (y 1).val = (y 1).val; omega
theorem iblk_5 (c : Dev nD) (t : Fin cfg3.N) : iblk3 V c 5 t = V c main_arg13 := by
  obtain ⟨-, -, -, -, -, -, -, -, -, -, e10, e11, -⟩ := idx_facts t
  funext y
  show V c main_arg13 (((cfg3.win 5).blk t).view.emb y) = V c main_arg13 y
  refine congrArg _ ?_
  funext a; apply Fin.ext
  match a with
  | ⟨0, _⟩ => show win3_5.index t (0 : Fin 2) * 64 + 1 * (y 0).val = (y 0).val; omega
  | ⟨1, _⟩ => show win3_5.index t (1 : Fin 2) * 1 + 1 * (y 1).val = (y 1).val; omega
theorem iblk_6 (c : Dev nD) (t : Fin cfg3.N) : iblk3 V c 6 t = V c main_v133 := by
  obtain ⟨-, -, -, -, -, -, -, -, -, -, -, -, e12, e13, -⟩ := idx_facts t
  funext y
  show V c main_v133 (((cfg3.win 6).blk t).view.emb y) = V c main_v133 y
  refine congrArg _ ?_
  funext a; apply Fin.ext
  match a with
  | ⟨0, _⟩ => show win3_6.index t (0 : Fin 2) * 1 + 1 * (y 0).val = (y 0).val; omega
  | ⟨1, _⟩ => show win3_6.index t (1 : Fin 2) * 1 + 1 * (y 1).val = (y 1).val; omega

/-- Row r of the embeddings window's block at point t is row 5000·t + r of the embeddings array. -/
theorem iblk_0 (c : Dev nD) (t : Fin cfg3.N) (r : Fin 5000) (k : Fin 128) (R : Fin 500000) (hR : R.val = 5000 * t.val + r.val) :
    iblk3 V c 0 t (ix2 r k) = V c main_v130 (ix2 R k) := by
  obtain ⟨e0, e1, -⟩ := idx_facts t
  show V c main_v130 (((cfg3.win 0).blk t).view.emb (ix2 r k)) = V c main_v130 (ix2 R k)
  refine congrArg _ ?_
  funext a; apply Fin.ext
  match a with
  | ⟨0, _⟩ => show win3_0.index t (0 : Fin 2) * 5000 + 1 * r.val = R.val; omega
  | ⟨1, _⟩ => show win3_0.index t (1 : Fin 2) * 128 + 1 * k.val = k.val; omega

/-- The column the kernel leaves, as one function of the arrays it found. -/
abbrev G (c : Dev nD) (b1 : FVec Ideal S128 .f32) (b2 : FVec Ideal S64 .f32) (b3 : FVec Ideal S1 .f32) : FVec Ideal S500000x1 .f32 :=
  fun i => Ideal.logistic (logits ev (V c main_v130) (V c main_arg9) b1 (V c main_arg11) b2 (V c main_arg13) b3 i)

/-- What point t writes back is block t of that column, when the three bias rows the kernel found are bias vectors
    given a unit axis. -/
theorem flushed_eq (c : Dev nD) (b1 : FVec Ideal S128 .f32) (b2 : FVec Ideal S64 .f32) (b3 : FVec Ideal S1 .f32)
    (hb1 : V c main_v131 = shapeCast S1x128 b1 ev.hr1) (hb2 : V c main_v132 = shapeCast S1x64 b2 ev.hr2)
    (hb3 : V c main_v133 = shapeCast S1x1 b3 ev.hr3) (t : Fin cfg3.N) :
    (dat3 V c).flushed 7 t = ((cfg3.win 7).blk t).view.read (Elt Ideal) (G ev V c b1 b2 b3) := by
  show (cfg3.win 7).cut (grid3.coords t) ((dat3 V c).after 7 t) = _
  rw [after3_7]
  unfold out3_7
  rw [View.canon_unit_zero hz]
  simp only [View.ld_unit_zero (S := S5000x128) hz, View.ld_unit_zero (S := S128x128) hz, View.ld_unit_zero (S := S1x128) hz,
    View.ld_unit_zero (S := S128x64) hz, View.ld_unit_zero (S := S1x64) hz, View.ld_unit_zero (S := S64x1) hz,
    View.ld_unit_zero (S := S1x1) hz]
  obtain ⟨-, -, -, -, -, -, -, -, -, -, -, -, -, -, e14, e15⟩ := idx_facts t
  have ht : t.val < 100 := t.isLt
  funext y
  have hr0 : (y 0).val < 5000 := (y 0).isLt
  have hy : y = ix2 (⟨(y 0).val, hr0⟩ : Fin 5000) (⟨(y 1).val, (y 1).isLt⟩ : Fin 1) := eq_ix2 y
  have hemb : ((cfg3.win 7).blk t).view.emb y
      = ix2 (⟨5000 * t.val + (y 0).val, by omega⟩ : Fin 500000) (⟨(y 1).val, (y 1).isLt⟩ : Fin 1) := by
    funext a; apply Fin.ext
    match a with
    | ⟨0, _⟩ => show win3_7.index t (0 : Fin 2) * 5000 + 1 * (y 0).val = 5000 * t.val + (y 0).val; omega
    | ⟨1, _⟩ => show win3_7.index t (1 : Fin 2) * 1 + 1 * (y 1).val = (y 1).val; omega
  show k3_pay1 (iblk3 V c 0 t) (iblk3 V c 1 t) (iblk3 V c 2 t) (iblk3 V c 3 t) (iblk3 V c 4 t) (iblk3 V c 5 t) (iblk3 V c 6 t) y = _
  refine ((congrArg (k3_pay1 (iblk3 V c 0 t) (iblk3 V c 1 t) (iblk3 V c 2 t) (iblk3 V c 3 t) (iblk3 V c 4 t) (iblk3 V c 5 t) (iblk3 V c 6 t)) hy).trans
    (pay_rows ev (V c main_v130) (V c main_arg9) b1 (V c main_arg11) b2 (V c main_arg13) b3
      (iblk3 V c 0 t) (iblk3 V c 1 t) (iblk3 V c 2 t) (iblk3 V c 3 t) (iblk3 V c 4 t) (iblk3 V c 5 t) (iblk3 V c 6 t)
      (iblk_1 V c t) ((iblk_2 V c t).trans hb1) (iblk_3 V c t) ((iblk_4 V c t).trans hb2) (iblk_5 V c t) ((iblk_6 V c t).trans hb3)
      ⟨(y 0).val, hr0⟩ ⟨5000 * t.val + (y 0).val, by omega⟩ ⟨(y 1).val, (y 1).isLt⟩
      (fun k => iblk_0 V c t ⟨(y 0).val, hr0⟩ k ⟨5000 * t.val + (y 0).val, by omega⟩ rfl))).trans ?_
  show _ = G ev V c b1 b2 b3 (((cfg3.win 7).blk t).view.emb y)
  rw [hemb]

/-- An index of the result column is in point t's block iff each coordinate is in the block's range. -/
theorem mem_blk (t : Fin cfg3.N) (i : S500000x1.Idx) :
    i ∈ ((cfg3.win 7).blk t).view.set ↔ ∀ a : Fin 2, win3_7.index t a * S5000x1.size a ≤ (i a).val ∧ (i a).val < win3_7.index t a * S5000x1.size a + S5000x1.size a := by
  show i ∈ ((View.whole main_v134).slice (win3_7.rect t)).set ↔ _
  rw [View.set_slice_whole, Rect.mem_set_unit]
  exact Iff.rfl

/-- The 100 blocks of 5000 rows tile the 500000 rows: row R is in the block of point R / 5000. -/
theorem cover (i : S500000x1.Idx) : ∃ t : Fin cfg3.N, (cfg3.win 7).flush t = true ∧ i ∈ ((cfg3.win 7).blk t).view.set := by
  have hi0 : (i 0).val < 500000 := (i 0).isLt
  have hi1 : (i 1).val < 1 := (i 1).isLt
  refine ⟨⟨(i 0).val / 5000, by show (i 0).val / 5000 < 100; omega⟩, flush3_7 _, ?_⟩
  obtain ⟨-, -, -, -, -, -, -, -, -, -, -, -, -, -, e14, e15⟩ := idx_facts ⟨(i 0).val / 5000, by show (i 0).val / 5000 < 100; omega⟩
  rw [mem_blk]
  intro a
  match a with
  | ⟨0, _⟩ => show win3_7.index _ (0 : Fin 2) * 5000 ≤ (i 0).val ∧ (i 0).val < win3_7.index _ (0 : Fin 2) * 5000 + 5000; simp only [] at e14; omega
  | ⟨1, _⟩ => show win3_7.index _ (1 : Fin 2) * 1 ≤ (i 1).val ∧ (i 1).val < win3_7.index _ (1 : Fin 2) * 1 + 1; omega

/-- THE COLUMN the kernel leaves: the logistic function of the host-spelt perceptron's logits of the arrays it found. -/
theorem final (c : Dev nD) (b1 : FVec Ideal S128 .f32) (b2 : FVec Ideal S64 .f32) (b3 : FVec Ideal S1 .f32)
    (hb1 : V c main_v131 = shapeCast S1x128 b1 ev.hr1) (hb2 : V c main_v132 = shapeCast S1x64 b2 ev.hr2)
    (hb3 : V c main_v133 = shapeCast S1x1 b3 ev.hr3) :
    (dat3 V c).arrAt 7 cfg3.N = G ev V c b1 b2 b3 :=
  (dat3 V c).arrAt_eq_of_cover 7 _ (fun t _ => flushed_eq ev V c b1 b2 b3 hb1 hb2 hb3 t) cover

end Cert.KernelIdeal.KRegion3

end
-- ==== Proof.LibResultsRest.lean ====
/-
  A finishing step for reading a line of host operations.

  Reading what a buffer holds after a line of operations is a rewriting computation. Done as one simplification
  pass it does not reach the operands of a concatenation, which sit inside a list of (shape, array) pairs; what is
  left there — a short chain of results at an operand's reference — is finished here by rewriting with each
  operation's result at its own reference and at any other reference, one at a time.
-/
import Idealize.ShloMosaic.Lib.StableHlo.Run

namespace Idealize.ShloMosaic.StableHlo

/-- Rewrites every remaining operation result, at its own reference or at another one, until none is left. -/
macro "after_results_rest" : tactic =>
  `(tactic| repeat (first
      | rw [nullary_result] | rw [unary_result] | rw [binary_result] | rw [ternary_result] | rw [quaternary_result]
      | rw [reshape_result]
      | (rw [nullary_result_ne]; rotate_left; decide)
      | (rw [unary_result_ne]; rotate_left; decide)
      | (rw [binary_result_ne]; rotate_left; decide)
      | (rw [ternary_result_ne]; rotate_left; decide)
      | (rw [quaternary_result_ne]; rotate_left; decide)
      | (rw [reshape_result_ne]; rotate_left; decide)))

end Idealize.ShloMosaic.StableHlo
-- ==== Proof.KStages.lean ====
/-
  The kernel program's buffers, stage by stage, as the reference's stages of the arguments.

  The kernel program and the reference run the same host operations between the dense layers: the two rows of the edge
  list cut out and normalized, the degrees by a scatter-add of ones, their inverse square roots, the gathers of
  neighbour rows, the scatter-add of the weighted messages, the self-loop term, the bias and the rectifier; then the
  gathers of the two end points' embeddings and their concatenation. Only the dense layers differ in spelling: the
  kernel program computes them in tiles on the matrix unit, the reference by the host's whole products. Going through
  the kernel program's segments in order, each buffer a later segment reads is therefore the reference's stage of the
  same name, as a function of the launch arguments: a host stretch by running its operations on stages already
  identified, a tiled kernel by its closed form (the host's product of the arrays it found).
  The last step joins the two spellings of the logistic function: the kernel applies 1 / (1 + exp (-x)) to the
  [500000, 1] column of logits and the host then drops the unit axis, while the reference drops the axis first and
  computes 1 / (1 + exp (-x)) by negate, exponential, add and divide; both read the same logit at each index.
-/
import proofs.«116931_j15522011808348_1_alg».proof.Proof.Gen.KernelIdeal.Frame
import proofs.«116931_j15522011808348_1_alg».proof.Proof.Gen.ReferenceIdeal.Read
import proofs.«116931_j15522011808348_1_alg».proof.Proof.KRegion0
import proofs.«116931_j15522011808348_1_alg».proof.Proof.KRegion1
import proofs.«116931_j15522011808348_1_alg».proof.Proof.KRegion2
import proofs.«116931_j15522011808348_1_alg».proof.Proof.KRegion3
import proofs.«116931_j15522011808348_1_alg».proof.Proof.LibResultsRest
import Idealize.ShloMosaic.Lib.StableHlo.Run

set_option maxRecDepth 16384
set_option maxHeartbeats 4000000

noncomputable section

namespace Cert.KernelIdeal.KStages

open Idealize.ShloMosaic Idealize.ShloMosaic.TcCoe Idealize.ShloMosaic.StableHlo
open Idealize.SL Idealize.SL.Sem
open Cert.KernelIdeal Cert.KernelIdeal.Gen

/-- One host stretch (or several in a row): unfold the boundary's contents to the stretch's run and compute it. -/
macro "host_step" : tactic =>
  `(tactic| (dsimp only [W1, W3, W4, W6, W7, W8, W10, W12]; after_results_simp))

variable (m : (ℓ : Loc nD τ sig) → Buf (Elt Ideal) ℓ) (ρ : Dev nD → PrngReg) (c : Dev nD)

/-! ## Before the first kernel: the two rows of the edge list -/

theorem W1_v1 : W1 m ρ c (Proc.devRef .tc main_v1) = Cert.ReferenceIdeal.Read.val_main_v1 (F := Ideal) (m ((c : Thread nD τ).loc main_arg1)) := by
  host_step <;> rfl
theorem W1_v3 : W1 m ρ c (Proc.devRef .tc main_v3) = Cert.ReferenceIdeal.Read.val_main_v3 (F := Ideal) (m ((c : Thread nD τ).loc main_arg1)) := by
  host_step <;> rfl
theorem W1_arg0 : W1 m ρ c (Proc.devRef .tc main_arg0) = (m ((c : Thread nD τ).loc main_arg0)) := by
  host_step <;> rfl
theorem W1_arg3 : W1 m ρ c (Proc.devRef .tc main_arg3) = (m ((c : Thread nD τ).loc main_arg3)) := by
  host_step <;> rfl

/-! ## The first kernel: x · W1 -/

theorem W2_v4 : W2 m ρ c (Proc.devRef .tc main_v4) = Cert.ReferenceIdeal.Read.val_main_v4 (F := Ideal) (m ((c : Thread nD τ).loc main_arg0)) (m ((c : Thread nD τ).loc main_arg3)) := by
  refine (W2_arr m ρ c 2).trans ((KRegion0.final (V1 m ρ) c).trans ?_)
  show Host.dotGeneral (F := Ideal) (DotDims.plain 100000 7 128) none (W1 m ρ c (Proc.devRef .tc main_arg0))
    (W1 m ρ c (Proc.devRef .tc main_arg3)) = _
  rw [W1_arg0, W1_arg3]; rfl
theorem W2_v1 : W2 m ρ c (Proc.devRef .tc main_v1) = Cert.ReferenceIdeal.Read.val_main_v1 (F := Ideal) (m ((c : Thread nD τ).loc main_arg1)) :=
  (W2_of_ne m ρ c main_v1 (by decide)).trans (W1_v1 m ρ c)
theorem W2_v3 : W2 m ρ c (Proc.devRef .tc main_v3) = Cert.ReferenceIdeal.Read.val_main_v3 (F := Ideal) (m ((c : Thread nD τ).loc main_arg1)) :=
  (W2_of_ne m ρ c main_v3 (by decide)).trans (W1_v3 m ρ c)
theorem W2_arg (b : Ref sig .tc) (hb : ∀ w, Pipeline.arrRef spec0 w ≠ b)
    (h0 : W1 m ρ c (Proc.devRef .tc b) = m ((c : Thread nD τ).loc b)) :
    W2 m ρ c (Proc.devRef .tc b) = m ((c : Thread nD τ).loc b) :=
  (W2_of_ne m ρ c b hb).trans h0
theorem W2_arg4 : W2 m ρ c (Proc.devRef .tc main_arg4) = (m ((c : Thread nD τ).loc main_arg4)) :=
  W2_arg m ρ c main_arg4 (by decide) (by host_step <;> rfl)
theorem W2_arg5 : W2 m ρ c (Proc.devRef .tc main_arg5) = (m ((c : Thread nD τ).loc main_arg5)) :=
  W2_arg m ρ c main_arg5 (by decide) (by host_step <;> rfl)
theorem W2_arg6 : W2 m ρ c (Proc.devRef .tc main_arg6) = (m ((c : Thread nD τ).loc main_arg6)) :=
  W2_arg m ρ c main_arg6 (by decide) (by host_step <;> rfl)
theorem W2_arg7 : W2 m ρ c (Proc.devRef .tc main_arg7) = (m ((c : Thread nD τ).loc main_arg7)) :=
  W2_arg m ρ c main_arg7 (by decide) (by host_step <;> rfl)
theorem W2_arg8 : W2 m ρ c (Proc.devRef .tc main_arg8) = (m ((c : Thread nD τ).loc main_arg8)) :=
  W2_arg m ρ c main_arg8 (by decide) (by host_step <;> rfl)
theorem W2_arg2 : W2 m ρ c (Proc.devRef .tc main_arg2) = (m ((c : Thread nD τ).loc main_arg2)) :=
  W2_arg m ρ c main_arg2 (by decide) (by host_step <;> rfl)
theorem W2_arg9 : W2 m ρ c (Proc.devRef .tc main_arg9) = (m ((c : Thread nD τ).loc main_arg9)) :=
  W2_arg m ρ c main_arg9 (by decide) (by host_step <;> rfl)
theorem W2_arg10 : W2 m ρ c (Proc.devRef .tc main_arg10) = (m ((c : Thread nD τ).loc main_arg10)) :=
  W2_arg m ρ c main_arg10 (by decide) (by host_step <;> rfl)
theorem W2_arg11 : W2 m ρ c (Proc.devRef .tc main_arg11) = (m ((c : Thread nD τ).loc main_arg11)) :=
  W2_arg m ρ c main_arg11 (by decide) (by host_step <;> rfl)
theorem W2_arg12 : W2 m ρ c (Proc.devRef .tc main_arg12) = (m ((c : Thread nD τ).loc main_arg12)) :=
  W2_arg m ρ c main_arg12 (by decide) (by host_step <;> rfl)
theorem W2_arg13 : W2 m ρ c (Proc.devRef .tc main_arg13) = (m ((c : Thread nD τ).loc main_arg13)) :=
  W2_arg m ρ c main_arg13 (by decide) (by host_step <;> rfl)
theorem W2_arg14 : W2 m ρ c (Proc.devRef .tc main_arg14) = (m ((c : Thread nD τ).loc main_arg14)) :=
  W2_arg m ρ c main_arg14 (by decide) (by host_step <;> rfl)

/-! ## The first layer's aggregation, bias and rectifier (host) -/

theorem W3_v55 : W3 m ρ c (Proc.devRef .tc main_v55) = Cert.ReferenceIdeal.Read.val_main_v55 (F := Ideal) (m ((c : Thread nD τ).loc main_arg0)) (m ((c : Thread nD τ).loc main_arg1)) (m ((c : Thread nD τ).loc main_arg3)) (m ((c : Thread nD τ).loc main_arg4)) := by
  show StableHlo.after hostOps1 (W2 m ρ c) (Proc.devRef .tc main_v55) = _
  after_results_simp
  rw [W2_v4, W2_v1, W2_v3, W2_arg4]
  rfl
/-- The rectifier's three operations from any contents: the maximum of what the operand buffer held with zero. -/
theorem relu0_stage (Y : Valuation τ sig (Elt Ideal)) :
    StableHlo.after hostOps1_1 Y (Proc.devRef .tc main_v56)
      = maximumf (F := Ideal) (Y (Proc.devRef .tc main_v55) : FVec Ideal S100000x128 .f32)
          (broadcastInDim S100000x128 ![] bcast_S_S100000x128 (constant (F := Ideal) S_ .f32 0x00000000#32)) := by
  after_results_simp <;> rfl
theorem W4_v56 : W4 m ρ c (Proc.devRef .tc main_v56) = Cert.ReferenceIdeal.Read.val_main_v56 (F := Ideal) (m ((c : Thread nD τ).loc main_arg0)) (m ((c : Thread nD τ).loc main_arg1)) (m ((c : Thread nD τ).loc main_arg3)) (m ((c : Thread nD τ).loc main_arg4)) := by
  refine (relu0_stage (W3 m ρ c)).trans ?_
  rw [W3_v55]
  rfl
theorem W4_v1 : W4 m ρ c (Proc.devRef .tc main_v1) = Cert.ReferenceIdeal.Read.val_main_v1 (F := Ideal) (m ((c : Thread nD τ).loc main_arg1)) := by
  host_step; exact W2_v1 m ρ c
theorem W4_v3 : W4 m ρ c (Proc.devRef .tc main_v3) = Cert.ReferenceIdeal.Read.val_main_v3 (F := Ideal) (m ((c : Thread nD τ).loc main_arg1)) := by
  host_step; exact W2_v3 m ρ c
theorem W4_arg5 : W4 m ρ c (Proc.devRef .tc main_arg5) = (m ((c : Thread nD τ).loc main_arg5)) := by host_step; exact W2_arg5 m ρ c
theorem W4_arg6 : W4 m ρ c (Proc.devRef .tc main_arg6) = (m ((c : Thread nD τ).loc main_arg6)) := by host_step; exact W2_arg6 m ρ c
theorem W4_arg7 : W4 m ρ c (Proc.devRef .tc main_arg7) = (m ((c : Thread nD τ).loc main_arg7)) := by host_step; exact W2_arg7 m ρ c
theorem W4_arg8 : W4 m ρ c (Proc.devRef .tc main_arg8) = (m ((c : Thread nD τ).loc main_arg8)) := by host_step; exact W2_arg8 m ρ c
theorem W4_arg2 : W4 m ρ c (Proc.devRef .tc main_arg2) = (m ((c : Thread nD τ).loc main_arg2)) := by host_step; exact W2_arg2 m ρ c
theorem W4_arg9 : W4 m ρ c (Proc.devRef .tc main_arg9) = (m ((c : Thread nD τ).loc main_arg9)) := by host_step; exact W2_arg9 m ρ c
theorem W4_arg10 : W4 m ρ c (Proc.devRef .tc main_arg10) = (m ((c : Thread nD τ).loc main_arg10)) := by host_step; exact W2_arg10 m ρ c
theorem W4_arg11 : W4 m ρ c (Proc.devRef .tc main_arg11) = (m ((c : Thread nD τ).loc main_arg11)) := by host_step; exact W2_arg11 m ρ c
theorem W4_arg12 : W4 m ρ c (Proc.devRef .tc main_arg12) = (m ((c : Thread nD τ).loc main_arg12)) := by host_step; exact W2_arg12 m ρ c
theorem W4_arg13 : W4 m ρ c (Proc.devRef .tc main_arg13) = (m ((c : Thread nD τ).loc main_arg13)) := by host_step; exact W2_arg13 m ρ c
theorem W4_arg14 : W4 m ρ c (Proc.devRef .tc main_arg14) = (m ((c : Thread nD τ).loc main_arg14)) := by host_step; exact W2_arg14 m ρ c

/-! ## The second kernel: h1 · W2 -/

theorem W5_v57 : W5 m ρ c (Proc.devRef .tc main_v57) = Cert.ReferenceIdeal.Read.val_main_v57 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W5_arr m ρ c 2).trans ((KRegion1.final (V4 m ρ) c).trans ?_)
  show Host.dotGeneral (F := Ideal) (DotDims.plain 100000 128 128) none (W4 m ρ c (Proc.devRef .tc main_v56))
    (W4 m ρ c (Proc.devRef .tc main_arg5)) = _
  rw [W4_v56, W4_arg5]; rfl
theorem W5_v1 : W5 m ρ c (Proc.devRef .tc main_v1) = Cert.ReferenceIdeal.Read.val_main_v1 (F := Ideal) (m ((c : Thread nD τ).loc main_arg1)) :=
  (W5_of_ne m ρ c main_v1 (by decide)).trans (W4_v1 m ρ c)
theorem W5_v3 : W5 m ρ c (Proc.devRef .tc main_v3) = Cert.ReferenceIdeal.Read.val_main_v3 (F := Ideal) (m ((c : Thread nD τ).loc main_arg1)) :=
  (W5_of_ne m ρ c main_v3 (by decide)).trans (W4_v3 m ρ c)
theorem W5_arg6 : W5 m ρ c (Proc.devRef .tc main_arg6) = (m ((c : Thread nD τ).loc main_arg6)) := (W5_of_ne m ρ c main_arg6 (by decide)).trans (W4_arg6 m ρ c)
theorem W5_arg7 : W5 m ρ c (Proc.devRef .tc main_arg7) = (m ((c : Thread nD τ).loc main_arg7)) := (W5_of_ne m ρ c main_arg7 (by decide)).trans (W4_arg7 m ρ c)
theorem W5_arg8 : W5 m ρ c (Proc.devRef .tc main_arg8) = (m ((c : Thread nD τ).loc main_arg8)) := (W5_of_ne m ρ c main_arg8 (by decide)).trans (W4_arg8 m ρ c)
theorem W5_arg2 : W5 m ρ c (Proc.devRef .tc main_arg2) = (m ((c : Thread nD τ).loc main_arg2)) := (W5_of_ne m ρ c main_arg2 (by decide)).trans (W4_arg2 m ρ c)
theorem W5_arg9 : W5 m ρ c (Proc.devRef .tc main_arg9) = (m ((c : Thread nD τ).loc main_arg9)) := (W5_of_ne m ρ c main_arg9 (by decide)).trans (W4_arg9 m ρ c)
theorem W5_arg10 : W5 m ρ c (Proc.devRef .tc main_arg10) = (m ((c : Thread nD τ).loc main_arg10)) := (W5_of_ne m ρ c main_arg10 (by decide)).trans (W4_arg10 m ρ c)
theorem W5_arg11 : W5 m ρ c (Proc.devRef .tc main_arg11) = (m ((c : Thread nD τ).loc main_arg11)) := (W5_of_ne m ρ c main_arg11 (by decide)).trans (W4_arg11 m ρ c)
theorem W5_arg12 : W5 m ρ c (Proc.devRef .tc main_arg12) = (m ((c : Thread nD τ).loc main_arg12)) := (W5_of_ne m ρ c main_arg12 (by decide)).trans (W4_arg12 m ρ c)
theorem W5_arg13 : W5 m ρ c (Proc.devRef .tc main_arg13) = (m ((c : Thread nD τ).loc main_arg13)) := (W5_of_ne m ρ c main_arg13 (by decide)).trans (W4_arg13 m ρ c)
theorem W5_arg14 : W5 m ρ c (Proc.devRef .tc main_arg14) = (m ((c : Thread nD τ).loc main_arg14)) := (W5_of_ne m ρ c main_arg14 (by decide)).trans (W4_arg14 m ρ c)

/-! ## The second layer's aggregation, bias and rectifier, and the encoder bias given a unit axis (host) -/

theorem W6_v108 : W6 m ρ c (Proc.devRef .tc main_v108) = Cert.ReferenceIdeal.Read.val_main_v108 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  show StableHlo.after hostOps2 (W5 m ρ c) (Proc.devRef .tc main_v108) = _
  after_results_simp
  rw [W5_v57, W5_v1, W5_v3, W5_arg6]
  rfl
/-- The second rectifier's three operations from any contents. -/
theorem relu1_stage (Y : Valuation τ sig (Elt Ideal)) :
    StableHlo.after hostOps2_1 Y (Proc.devRef .tc main_v109)
      = maximumf (F := Ideal) (Y (Proc.devRef .tc main_v108) : FVec Ideal S100000x128 .f32)
          (broadcastInDim S100000x128 ![] bcast_S_S100000x128 (constant (F := Ideal) S_ .f32 0x00000000#32)) := by
  after_results_simp <;> rfl
/-- The cast of the encoder's bias writes no other buffer. -/
theorem cast_stage (Y : Valuation τ sig (Elt Ideal)) :
    StableHlo.after hostOps2_2 Y (Proc.devRef .tc main_v109) = Y (Proc.devRef .tc main_v109) := by
  after_results_simp
theorem W8_v109 : W8 m ρ c (Proc.devRef .tc main_v109) = Cert.ReferenceIdeal.Read.val_main_v109 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) := by
  refine (cast_stage (W7 m ρ c)).trans ((relu1_stage (W6 m ρ c)).trans ?_)
  rw [W6_v108]
  rfl
theorem W8_v110 : W8 m ρ c (Proc.devRef .tc main_v110) = shapeCast S1x64 (m ((c : Thread nD τ).loc main_arg8)) shapeCasts_S64_S1x64 := by
  host_step
  rw [W5_arg8]
  rfl
theorem W8_arg7 : W8 m ρ c (Proc.devRef .tc main_arg7) = (m ((c : Thread nD τ).loc main_arg7)) := by host_step; exact W5_arg7 m ρ c
theorem W8_arg2 : W8 m ρ c (Proc.devRef .tc main_arg2) = (m ((c : Thread nD τ).loc main_arg2)) := by host_step; exact W5_arg2 m ρ c
theorem W8_arg9 : W8 m ρ c (Proc.devRef .tc main_arg9) = (m ((c : Thread nD τ).loc main_arg9)) := by host_step; exact W5_arg9 m ρ c
theorem W8_arg10 : W8 m ρ c (Proc.devRef .tc main_arg10) = (m ((c : Thread nD τ).loc main_arg10)) := by host_step; exact W5_arg10 m ρ c
theorem W8_arg11 : W8 m ρ c (Proc.devRef .tc main_arg11) = (m ((c : Thread nD τ).loc main_arg11)) := by host_step; exact W5_arg11 m ρ c
theorem W8_arg12 : W8 m ρ c (Proc.devRef .tc main_arg12) = (m ((c : Thread nD τ).loc main_arg12)) := by host_step; exact W5_arg12 m ρ c
theorem W8_arg13 : W8 m ρ c (Proc.devRef .tc main_arg13) = (m ((c : Thread nD τ).loc main_arg13)) := by host_step; exact W5_arg13 m ρ c
theorem W8_arg14 : W8 m ρ c (Proc.devRef .tc main_arg14) = (m ((c : Thread nD τ).loc main_arg14)) := by host_step; exact W5_arg14 m ρ c

/-! ## The third kernel: the encoder's output layer h2 · Wfc + bfc -/

theorem W9_v111 : W9 m ρ c (Proc.devRef .tc main_v111) = Cert.ReferenceIdeal.Read.val_main_v113 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W9_arr m ρ c 3).trans ((KRegion2.final (V8 m ρ) Cert.ReferenceIdeal.Gen.bcast_S64_S1x64_1
    Cert.ReferenceIdeal.Gen.bcast_S1x64_S100000x64_0_1 shapeCasts_S64_S1x64 c (m ((c : Thread nD τ).loc main_arg8)) (W8_v110 m ρ c)).trans ?_)
  show addf (Host.dotGeneral (F := Ideal) (DotDims.plain 100000 128 64) none (W8 m ρ c (Proc.devRef .tc main_v109))
    (W8 m ρ c (Proc.devRef .tc main_arg7))) _ = _
  rw [W8_v109, W8_arg7]; rfl
theorem W9_arg2 : W9 m ρ c (Proc.devRef .tc main_arg2) = (m ((c : Thread nD τ).loc main_arg2)) := (W9_of_ne m ρ c main_arg2 (by decide)).trans (W8_arg2 m ρ c)
theorem W9_arg9 : W9 m ρ c (Proc.devRef .tc main_arg9) = (m ((c : Thread nD τ).loc main_arg9)) := (W9_of_ne m ρ c main_arg9 (by decide)).trans (W8_arg9 m ρ c)
theorem W9_arg10 : W9 m ρ c (Proc.devRef .tc main_arg10) = (m ((c : Thread nD τ).loc main_arg10)) := (W9_of_ne m ρ c main_arg10 (by decide)).trans (W8_arg10 m ρ c)
theorem W9_arg11 : W9 m ρ c (Proc.devRef .tc main_arg11) = (m ((c : Thread nD τ).loc main_arg11)) := (W9_of_ne m ρ c main_arg11 (by decide)).trans (W8_arg11 m ρ c)
theorem W9_arg12 : W9 m ρ c (Proc.devRef .tc main_arg12) = (m ((c : Thread nD τ).loc main_arg12)) := (W9_of_ne m ρ c main_arg12 (by decide)).trans (W8_arg12 m ρ c)
theorem W9_arg13 : W9 m ρ c (Proc.devRef .tc main_arg13) = (m ((c : Thread nD τ).loc main_arg13)) := (W9_of_ne m ρ c main_arg13 (by decide)).trans (W8_arg13 m ρ c)
theorem W9_arg14 : W9 m ρ c (Proc.devRef .tc main_arg14) = (m ((c : Thread nD τ).loc main_arg14)) := (W9_of_ne m ρ c main_arg14 (by decide)).trans (W8_arg14 m ρ c)

/-! ## The two end points' embeddings gathered and joined, and the decoder's biases given a unit axis (host) -/

theorem W10_v130 : W10 m ρ c (Proc.devRef .tc main_v130) = Cert.ReferenceIdeal.Read.val_main_v132 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  host_step
  after_results_rest
  rw [W9_v111, W9_arg2]
  rfl
theorem W10_v131 : W10 m ρ c (Proc.devRef .tc main_v131) = shapeCast S1x128 (m ((c : Thread nD τ).loc main_arg10)) shapeCasts_S128_S1x128 := by
  host_step
  rw [W9_arg10]
  rfl
theorem W10_v132 : W10 m ρ c (Proc.devRef .tc main_v132) = shapeCast S1x64 (m ((c : Thread nD τ).loc main_arg12)) shapeCasts_S64_S1x64 := by
  host_step
  rw [W9_arg12]
  rfl
theorem W10_v133 : W10 m ρ c (Proc.devRef .tc main_v133) = shapeCast S1x1 (m ((c : Thread nD τ).loc main_arg14)) shapeCasts_S1_S1x1 := by
  host_step
  rw [W9_arg14]
  rfl
theorem W10_arg9 : W10 m ρ c (Proc.devRef .tc main_arg9) = (m ((c : Thread nD τ).loc main_arg9)) := by host_step; exact W9_arg9 m ρ c
theorem W10_arg11 : W10 m ρ c (Proc.devRef .tc main_arg11) = (m ((c : Thread nD τ).loc main_arg11)) := by host_step; exact W9_arg11 m ρ c
theorem W10_arg13 : W10 m ρ c (Proc.devRef .tc main_arg13) = (m ((c : Thread nD τ).loc main_arg13)) := by host_step; exact W9_arg13 m ρ c

/-! ## The fourth kernel: the decoder, and the host's drop of the unit axis -/

/-- The side conditions of the decoder's broadcasts (the reference's) and of the casts that give the three bias
    vectors their unit axis (the kernel program's). -/
theorem ev : KRegion3.Ev :=
  ⟨Cert.ReferenceIdeal.Gen.bcast_S128_S1x128_1, Cert.ReferenceIdeal.Gen.bcast_S1x128_S500000x128_0_1,
   Cert.ReferenceIdeal.Gen.bcast_S_S500000x128, Cert.ReferenceIdeal.Gen.bcast_S64_S1x64_1,
   Cert.ReferenceIdeal.Gen.bcast_S1x64_S500000x64_0_1, Cert.ReferenceIdeal.Gen.bcast_S_S500000x64,
   Cert.ReferenceIdeal.Gen.bcast_S1_S1x1_1, Cert.ReferenceIdeal.Gen.bcast_S1x1_S500000x1_0_1,
   shapeCasts_S128_S1x128, shapeCasts_S64_S1x64, shapeCasts_S1_S1x1⟩

/-- The column the decoder leaves is the logistic function of the reference's column of logits. -/
theorem W11_v134 : W11 m ρ c (Proc.devRef .tc main_v134)
    = (fun i => Ideal.logistic (Cert.ReferenceIdeal.Read.val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) i) : FVec Ideal S500000x1 .f32) := by
  refine (W11_arr m ρ c 7).trans ((KRegion3.final ev (V10 m ρ) c (m ((c : Thread nD τ).loc main_arg10)) (m ((c : Thread nD τ).loc main_arg12)) (m ((c : Thread nD τ).loc main_arg14))
    (W10_v131 m ρ c) (W10_v132 m ρ c) (W10_v133 m ρ c)).trans ?_)
  funext i
  show Ideal.logistic (KRegion3.logits ev (W10 m ρ c (Proc.devRef .tc main_v130)) (W10 m ρ c (Proc.devRef .tc main_arg9)) (m ((c : Thread nD τ).loc main_arg10))
    (W10 m ρ c (Proc.devRef .tc main_arg11)) (m ((c : Thread nD τ).loc main_arg12)) (W10 m ρ c (Proc.devRef .tc main_arg13)) (m ((c : Thread nD τ).loc main_arg14)) i) = _
  rw [W10_v130, W10_arg9, W10_arg11, W10_arg13]
  rfl

/-- The f32 word of 1.0 is the number one. -/
theorem one_word : Ideal.ofBits .f32 0x3F800000#32 = 1 := IdealRules.sign_bit.ideal_onePat .f32

/-- The logistic function applied before the unit axis is dropped is 1 / (1 + exp (-x)), spelt by negate, exponential,
    add and divide, applied after it: both read the same entry of the column. -/
theorem logistic_reshape (A : FVec Ideal S500000x1 .f32) (h : S500000x1.ShapeCasts S500000) (h0 : S_.BroadcastsInDim S500000 ![]) :
    shapeCast S500000 (fun i => Ideal.logistic (A i) : FVec Ideal S500000x1 .f32) h
      = Host.divf (broadcastInDim S500000 ![] h0 (constant (F := Ideal) S_ .f32 0x3F800000#32))
          (addf (broadcastInDim S500000 ![] h0 (constant (F := Ideal) S_ .f32 0x3F800000#32))
            (Host.exp (Host.negf (shapeCast S500000 A h)))) := by
  funext j
  show Ideal.logistic (shapeCast S500000 A h j)
    = Ideal.div (Ideal.ofBits .f32 0x3F800000#32) (Ideal.ofBits .f32 0x3F800000#32 + Ideal.exp (-(shapeCast S500000 A h j)))
  rw [one_word]; rfl

/-- THE RESULT: the kernel program's result buffer ends at the reference's result as a function of the launch arguments. -/
theorem result : W12 m ρ c (Proc.devRef .tc main_v135)
    = Cert.ReferenceIdeal.Read.val_main_v153 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  host_step
  rw [W11_v134]
  refine (logistic_reshape _ _ Cert.ReferenceIdeal.Gen.bcast_S_S500000).trans ?_
  rfl

end Cert.KernelIdeal.KStages

end
-- ==== Proof.lean ====
/-
  The proof of the certificate's claim: a two-layer graph convolution encoder, a gather of the query pairs' embeddings
  and a three-layer perceptron decoder with a logistic output, computed by four tiled matrix-unit kernels among host
  operations, against the same network written with the host's whole matrix products.

  The three frames: each kernel program's frame is generated whole; the reference has no kernel, and its frame is its
  generated run with the result dropped. The idealization rewrote nothing, so it preserves the program trivially.
  The value claim: the kernel program's run names its result as the last contents of a fold through its twelve
  segments (KRun); read segment by segment that result is the reference's last stage as a function of the arguments
  (KStages), each tiled kernel being the host's product of the arrays it found (KRegion0 … KRegion3: a block of rows
  of a product is the same rows of the whole product, and the blocks tile the rows). The graph operations — degrees,
  inverse square roots, gathers, scatter-adds — are the same host operations in both programs and are never opened;
  no law of the extended reals beyond rewriting equal terms is used, so the finiteness of the inputs is not needed.
  The reference's run ends at the same function of its own arguments, which agree with the kernel program's.
-/
import proofs.«116931_j15522011808348_1_alg».proof.Defs
import proofs.«116931_j15522011808348_1_alg».proof.Proof.Gen.Kernel
import proofs.«116931_j15522011808348_1_alg».proof.Proof.Gen.Kernel.Skeleton
import proofs.«116931_j15522011808348_1_alg».proof.Proof.Gen.Kernel.Launch
import proofs.«116931_j15522011808348_1_alg».proof.Proof.Gen.Kernel.Points
import proofs.«116931_j15522011808348_1_alg».proof.Proof.Gen.Kernel.Frame
import proofs.«116931_j15522011808348_1_alg».proof.Proof.Gen.KernelIdeal
import proofs.«116931_j15522011808348_1_alg».proof.Proof.Gen.KernelIdeal.Skeleton
import proofs.«116931_j15522011808348_1_alg».proof.Proof.Gen.KernelIdeal.Launch
import proofs.«116931_j15522011808348_1_alg».proof.Proof.Gen.KernelIdeal.Points
import proofs.«116931_j15522011808348_1_alg».proof.Proof.Gen.KernelIdeal.Frame
import proofs.«116931_j15522011808348_1_alg».proof.Proof.Gen.ReferenceIdeal
import proofs.«116931_j15522011808348_1_alg».proof.Proof.Gen.Pre_finite_inputs
import proofs.«116931_j15522011808348_1_alg».proof.Proof.Gen.ReferenceIdeal.Run
import proofs.«116931_j15522011808348_1_alg».proof.Proof.Gen.ReferenceIdeal.Read
import proofs.«116931_j15522011808348_1_alg».proof.Proof.KRun
import proofs.«116931_j15522011808348_1_alg».proof.Proof.KStages
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end at the reference's last stage of the (agreeing) arguments. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.KStages.result m ρ c), (h c).2⟩)
    (Cert.KernelIdeal.KRun.run_value m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v153_eq]
  obtain ⟨a0, a1, a2, a3, a4, a5, a6, a7, a8, a9, a10, a11, a12, a13, a14⟩ := hagree c
  rw [a0, a1, a2, a3, a4, a5, a6, a7, a8, a9, a10, a11, a12, a13, a14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
